-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v36_0)) (v1 : (c : Dev Cert.KernelIdeal.nD) → Buf (Elt Ideal) ((c.tc : Thread Cert.KernelIdeal.nD Cert.KernelIdeal.τ).loc Cert.KernelIdeal.main_v36_1)) (v2 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36_0) = v0 c
          ∧ r.2.mem ((c.tc : Thread Cert.KernelIdeal.nD Cert.KernelIdeal.τ).loc Cert.KernelIdeal.main_v36_1) = v1 c
          ∧ r.2.mem ((c.tc : Thread Cert.KernelIdeal.nD Cert.KernelIdeal.τ).loc Cert.KernelIdeal.main_v39) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v89) = v1 c
          ∧ r.2.mem ((c.tc : Thread Cert.ReferenceIdeal.nD Cert.ReferenceIdeal.τ).loc Cert.ReferenceIdeal.main_v91) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000x4 : Shape := ⟨2, ![2000, 4]⟩
abbrev S512x4 : Shape := ⟨2, ![512, 4]⟩
abbrev S_ : Shape := ⟨0, ![]⟩

class Facts : Prop where
  bcast_S_S2000x4 : S_.BroadcastsInDim S2000x4 (![] : Fin 0 → Fin S2000x4.rank)
  reducesTo_S2000x4_S_d0_1 : S2000x4.ReducesTo [0, 1] S_
  h_S_ : 0 < S_.numel
  bcast_S_S512x4 : S_.BroadcastsInDim S512x4 (![] : Fin 0 → Fin S512x4.rank)
  reducesTo_S512x4_S_d0_1 : S512x4.ReducesTo [0, 1] S_

variable [Facts]

def fn {F : FTy → Type} [FloatOps F] (main_arg0 : FVec F S2000x4 .f32) (main_arg1 : FVec F S512x4 .f32) : IVec S_ 1 :=
  let main_v0 : FVec F S2000x4 .f32 := Host.absf main_arg0
  let main_cst : FVec F S_ .f32 := constant S_ .f32 0x7F800000#32
  let main_v1 : FVec F S2000x4 .f32 := broadcastInDim S2000x4 ![] bcast_S_S2000x4 main_cst
  let main_v2 : IVec S2000x4 1 := cmpf .olt main_v0 main_v1
  let main_c : IVec S_ 1 := constantI S_ 1 1#1
  let main_v3 : IVec S_ 1 := (fun x v => Host.reduce IntOp.andi x v reducesTo_S2000x4_S_d0_1 h_S_) main_v2 main_c
  let main_v4 : FVec F S512x4 .f32 := Host.absf main_arg1
  let main_cst_0 : FVec F S_ .f32 := constant S_ .f32 0x7F800000#32
  let main_v5 : FVec F S512x4 .f32 := broadcastInDim S512x4 ![] bcast_S_S512x4 main_cst_0
  let main_v6 : IVec S512x4 1 := cmpf .olt main_v4 main_v5
  let main_c_1 : IVec S_ 1 := constantI S_ 1 1#1
  let main_v7 : IVec S_ 1 := (fun x v => Host.reduce IntOp.andi x v reducesTo_S512x4_S_d0_1 h_S_) main_v6 main_c_1
  let main_v8 : IVec S_ 1 := andi main_v3 main_v7
  main_v8
-- ==== Kernel.lean ====
abbrev S2000x4 : Shape := ⟨2, ![2000, 4]⟩
abbrev S512x4 : Shape := ⟨2, ![512, 4]⟩
abbrev S2000x1 : Shape := ⟨2, ![2000, 1]⟩
abbrev S2000 : Shape := ⟨1, ![2000]⟩
abbrev S2000x5 : Shape := ⟨2, ![2000, 5]⟩
abbrev S512x1 : Shape := ⟨2, ![512, 1]⟩
abbrev S512 : Shape := ⟨1, ![512]⟩
abbrev S512x5 : Shape := ⟨2, ![512, 5]⟩
abbrev S5x2000 : Shape := ⟨2, ![5, 2000]⟩
abbrev S5x512 : Shape := ⟨2, ![5, 512]⟩
abbrev S2000x512 : Shape := ⟨2, ![2000, 512]⟩
abbrev S2000x2000 : Shape := ⟨2, ![2000, 2000]⟩
abbrev S400x5 : Shape := ⟨2, ![400, 5]⟩
abbrev S400x512 : Shape := ⟨2, ![400, 512]⟩
abbrev S400x2000 : Shape := ⟨2, ![400, 2000]⟩
abbrev S400x1 : Shape := ⟨2, ![400, 1]⟩
abbrev S1x512 : Shape := ⟨2, ![1, 512]⟩
abbrev S1x2000 : Shape := ⟨2, ![1, 2000]⟩
abbrev S_ : Shape := ⟨0, ![]⟩

abbrev nBuf : Space → Nat
  | .hbm => 45
  | .vmem => 10
  | .smem => 0
  | _ => 0

abbrev bufTy : (tb : Table) → Fin (tcTables nBuf tb) → BufTy
  | .hbm, ⟨0, _⟩ => ⟨S2000x4, .f32⟩
  | .hbm, ⟨1, _⟩ => ⟨S512x4, .f32⟩
  | .hbm, ⟨2, _⟩ => ⟨S2000x1, .f32⟩
  | .hbm, ⟨3, _⟩ => ⟨S2000, .f32⟩
  | .hbm, ⟨4, _⟩ => ⟨S2000x1, .f32⟩
  | .hbm, ⟨5, _⟩ => ⟨S2000, .f32⟩
  | .hbm, ⟨6, _⟩ => ⟨S2000x1, .f32⟩
  | .hbm, ⟨7, _⟩ => ⟨S2000, .f32⟩
  | .hbm, ⟨8, _⟩ => ⟨S2000x1, .f32⟩
  | .hbm, ⟨9, _⟩ => ⟨S2000, .f32⟩
  | .hbm, ⟨10, _⟩ => ⟨S2000, .f32⟩
  | .hbm, ⟨11, _⟩ => ⟨S2000, .f32⟩
  | .hbm, ⟨12, _⟩ => ⟨S2000, .f32⟩
  | .hbm, ⟨13, _⟩ => ⟨S2000x1, .f32⟩
  | .hbm, ⟨14, _⟩ => ⟨S2000x1, .f32⟩
  | .hbm, ⟨15, _⟩ => ⟨S2000x1, .f32⟩
  | .hbm, ⟨16, _⟩ => ⟨S2000x1, .f32⟩
  | .hbm, ⟨17, _⟩ => ⟨S2000x1, .f32⟩
  | .hbm, ⟨18, _⟩ => ⟨S2000x5, .f32⟩
  | .hbm, ⟨19, _⟩ => ⟨S512x1, .f32⟩
  | .hbm, ⟨20, _⟩ => ⟨S512, .f32⟩
  | .hbm, ⟨21, _⟩ => ⟨S512x1, .f32⟩
  | .hbm, ⟨22, _⟩ => ⟨S512, .f32⟩
  | .hbm, ⟨23, _⟩ => ⟨S512x1, .f32⟩
  | .hbm, ⟨24, _⟩ => ⟨S512, .f32⟩
  | .hbm, ⟨25, _⟩ => ⟨S512x1, .f32⟩
  | .hbm, ⟨26, _⟩ => ⟨S512, .f32⟩
  | .hbm, ⟨27, _⟩ => ⟨S512, .f32⟩
  | .hbm, ⟨28, _⟩ => ⟨S512, .f32⟩
  | .hbm, ⟨29, _⟩ => ⟨S512, .f32⟩
  | .hbm, ⟨30, _⟩ => ⟨S512x1, .f32⟩
  | .hbm, ⟨31, _⟩ => ⟨S512x1, .f32⟩
  | .hbm, ⟨32, _⟩ => ⟨S512x1, .f32⟩
  | .hbm, ⟨33, _⟩ => ⟨S512x1, .f32⟩
  | .hbm, ⟨34, _⟩ => ⟨S512x1, .f32⟩
  | .hbm, ⟨35, _⟩ => ⟨S512x5, .f32⟩
  | .hbm, ⟨36, _⟩ => ⟨S5x2000, .f32⟩
  | .hbm, ⟨37, _⟩ => ⟨S5x512, .f32⟩
  | .hbm, ⟨38, _⟩ => ⟨S2000x512, .f32⟩
  | .hbm, ⟨39, _⟩ => ⟨S2000x2000, .f32⟩
  | .hbm, ⟨40, _⟩ => ⟨S2000x2000, .i32⟩
  | .hbm, ⟨41, _⟩ => ⟨S_, .i32⟩
  | .hbm, ⟨42, _⟩ => ⟨S2000x2000, .i32⟩
  | .hbm, ⟨43, _⟩ => ⟨S2000x2000, .i1⟩
  | .hbm, ⟨44, _⟩ => ⟨S2000x2000, .i1⟩
  | .local _ .vmem, ⟨0, _⟩ => ⟨S400x5, .f32⟩
  | .local _ .vmem, ⟨1, _⟩ => ⟨S400x5, .f32⟩
  | .local _ .vmem, ⟨2, _⟩ => ⟨S5x2000, .f32⟩
  | .local _ .vmem, ⟨3, _⟩ => ⟨S5x512, .f32⟩
  | .local _ .vmem, ⟨4, _⟩ => ⟨S400x512, .f32⟩
  | .local _ .vmem, ⟨5, _⟩ => ⟨S400x512, .f32⟩
  | .local _ .vmem, ⟨6, _⟩ => ⟨S400x2000, .f32⟩
  | .local _ .vmem, ⟨7, _⟩ => ⟨S400x2000, .f32⟩
  | .local _ .vmem, ⟨8, _⟩ => ⟨S400x2000, .i32⟩
  | .local _ .vmem, ⟨9, _⟩ => ⟨S400x2000, .i32⟩
  | _, _ => ⟨S2000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36_0 : Ref sig .tc := ⟨.hbm, 38, rfl⟩
abbrev main_v36_1 : Ref sig .tc := ⟨.hbm, 39, rfl⟩
abbrev main_v36_2 : Ref sig .tc := ⟨.hbm, 40, rfl⟩
abbrev main_c : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x2000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S400x2000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S400x2000 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2000x4_S2000x1_0_0 : S2000x4.Slices ![0, 0] S2000x1
  shapeCasts_S2000x1_S2000 : S2000x1.ShapeCasts S2000
  slices_S2000x4_S2000x1_0_1 : S2000x4.Slices ![0, 1] S2000x1
  slices_S2000x4_S2000x1_0_2 : S2000x4.Slices ![0, 2] S2000x1
  slices_S2000x4_S2000x1_0_3 : S2000x4.Slices ![0, 3] S2000x1
  bcast_S2000_S2000x1_0 : S2000.BroadcastsInDim S2000x1 (![0] : Fin 1 → Fin S2000x1.rank)
  concatenates_S2000x1_S2000x1_S2000x1_S2000x1_S2000x1_S2000x5_d1 : Shape.Concatenates [S2000x1, S2000x1, S2000x1, S2000x1, S2000x1] S2000x5 1
  slices_S512x4_S512x1_0_0 : S512x4.Slices ![0, 0] S512x1
  shapeCasts_S512x1_S512 : S512x1.ShapeCasts S512
  slices_S512x4_S512x1_0_1 : S512x4.Slices ![0, 1] S512x1
  slices_S512x4_S512x1_0_2 : S512x4.Slices ![0, 2] S512x1
  slices_S512x4_S512x1_0_3 : S512x4.Slices ![0, 3] S512x1
  bcast_S512_S512x1_0 : S512.BroadcastsInDim S512x1 (![0] : Fin 1 → Fin S512x1.rank)
  concatenates_S512x1_S512x1_S512x1_S512x1_S512x1_S512x5_d1 : Shape.Concatenates [S512x1, S512x1, S512x1, S512x1, S512x1] S512x5 1
  transposes_S2000x5_S5x2000_1_0 : S2000x5.Transposes [1, 0] S5x2000
  transposes_S512x5_S5x512_1_0 : S512x5.Transposes [1, 0] S5x512
  inb_S400x5_S400x5_0_0 : ∀ a, (![0, 0] : Fin 2 → Nat) a + S400x5.size a ≤ S400x5.size a
  h_S400x5 : 0 < S400x5.numel
  shapeCasts_S400x5_S400x5 : S400x5.ShapeCasts S400x5
  slices_S400x5_o0_0_S400x1 : S400x5.Slices ![0, 0] S400x1
  slices_S400x5_o0_1_S400x1 : S400x5.Slices ![0, 1] S400x1
  slices_S400x5_o0_2_S400x1 : S400x5.Slices ![0, 2] S400x1
  slices_S400x5_o0_3_S400x1 : S400x5.Slices ![0, 3] S400x1
  slices_S400x5_o0_4_S400x1 : S400x5.Slices ![0, 4] S400x1
  inb_S5x512_S5x512_0_0 : ∀ a, (![0, 0] : Fin 2 → Nat) a + S5x512.size a ≤ S5x512.size a
  h_S5x512 : 0 < S5x512.numel
  shapeCasts_S5x512_S5x512 : S5x512.ShapeCasts S5x512
  slices_S5x512_o0_0_S1x512 : S5x512.Slices ![0, 0] S1x512
  slices_S5x512_o1_0_S1x512 : S5x512.Slices ![1, 0] S1x512
  slices_S5x512_o2_0_S1x512 : S5x512.Slices ![2, 0] S1x512
  slices_S5x512_o3_0_S1x512 : S5x512.Slices ![3, 0] S1x512
  slices_S5x512_o4_0_S1x512 : S5x512.Slices ![4, 0] S1x512
  broadcasts_S400x1_S400x512 : S400x1.Broadcasts S400x512
  broadcasts_S1x512_S400x512 : S1x512.Broadcasts S400x512
  inb_S400x512_S400x512_0_0 : ∀ a, (![0, 0] : Fin 2 → Nat) a + S400x512.size a ≤ S400x512.size a
  h_S400x512 : 0 < S400x512.numel
  inb_S5x2000_S5x2000_0_0 : ∀ a, (![0, 0] : Fin 2 → Nat) a + S5x2000.size a ≤ S5x2000.size a
  h_S5x2000 : 0 < S5x2000.numel
  shapeCasts_S5x2000_S5x2000 : S5x2000.ShapeCasts S5x2000
  slices_S5x2000_o0_0_S1x2000 : S5x2000.Slices ![0, 0] S1x2000
  slices_S5x2000_o1_0_S1x2000 : S5x2000.Slices ![1, 0] S1x2000
  slices_S5x2000_o2_0_S1x2000 : S5x2000.Slices ![2, 0] S1x2000
  slices_S5x2000_o3_0_S1x2000 : S5x2000.Slices ![3, 0] S1x2000
  slices_S5x2000_o4_0_S1x2000 : S5x2000.Slices ![4, 0] S1x2000
  broadcasts_S400x1_S400x2000 : S400x1.Broadcasts S400x2000
  broadcasts_S1x2000_S400x2000 : S1x2000.Broadcasts S400x2000
  inb_S400x2000_S400x2000_0_0 : ∀ a, (![0, 0] : Fin 2 → Nat) a + S400x2000.size a ≤ S400x2000.size a
  h_S400x2000 : 0 < S400x2000.numel
  natLt_1_32 : 1 < 32
  bcast_S_S2000x2000 : S_.BroadcastsInDim S2000x2000 (![] : Fin 0 → Fin S2000x2000.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x5.size a ≤ S2000x5.size a
  hwx0_0 : ∀ i : grid0.Coords, EltTy.bits .f32 = 32 ∨ (Rect.block (s := S2000x5) S400x5.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x2000.size a ≤ S5x2000.size a
  hwx0_1 : ∀ i : grid0.Coords, EltTy.bits .f32 = 32 ∨ (Rect.block (s := S5x2000) S5x2000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S5x512.size a ≤ S5x512.size a
  hwx0_2 : ∀ i : grid0.Coords, EltTy.bits .f32 = 32 ∨ (Rect.block (s := S5x512) S5x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x512.size a ≤ S2000x512.size a
  hwx0_3 : ∀ i : grid0.Coords, EltTy.bits .f32 = 32 ∨ (Rect.block (s := S2000x512) S400x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x2000.size a ≤ S2000x2000.size a
  hwx0_4 : ∀ i : grid0.Coords, EltTy.bits .f32 = 32 ∨ (Rect.block (s := S2000x2000) S400x2000.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x2000.size a ≤ S2000x2000.size a
  hwx0_5 : ∀ i : grid0.Coords, EltTy.bits .i32 = 32 ∨ (Rect.block (s := S2000x2000) S400x2000.size (cc0_transform_5 i) (hinb0_5 i)).WholeWords (EltTy.packing .i32)

variable [Facts₀]

abbrev win0_0 : Pipeline.Window sig grid0 :=
  Pipeline.Window.ofSpec (Memref.whole main_v16) S400x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v34) S5x2000.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S5x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v36_0) S400x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v36_1) S400x2000.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v36_2) S400x2000.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2000x4 : Shape := ⟨2, ![2000, 4]⟩
abbrev S512x4 : Shape := ⟨2, ![512, 4]⟩
abbrev S2000x1 : Shape := ⟨2, ![2000, 1]⟩
abbrev S2000 : Shape := ⟨1, ![2000]⟩
abbrev S512x1 : Shape := ⟨2, ![512, 1]⟩
abbrev S512 : Shape := ⟨1, ![512]⟩
abbrev S1x512 : Shape := ⟨2, ![1, 512]⟩
abbrev S2000x512 : Shape := ⟨2, ![2000, 512]⟩
abbrev S_ : Shape := ⟨0, ![]⟩
abbrev S1x2000 : Shape := ⟨2, ![1, 2000]⟩
abbrev S2000x2000 : Shape := ⟨2, ![2000, 2000]⟩

abbrev nBuf : Space → Nat
  | .hbm => 99
  | .vmem => 0
  | .smem => 0
  | _ => 0

abbrev bufTy : (tb : Table) → Fin (tcTables nBuf tb) → BufTy
  | .hbm, ⟨0, _⟩ => ⟨S2000x4, .f32⟩
  | .hbm, ⟨1, _⟩ => ⟨S512x4, .f32⟩
  | .hbm, ⟨2, _⟩ => ⟨S2000x1, .f32⟩
  | .hbm, ⟨3, _⟩ => ⟨S2000, .f32⟩
  | .hbm, ⟨4, _⟩ => ⟨S2000x1, .f32⟩
  | .hbm, ⟨5, _⟩ => ⟨S2000, .f32⟩
  | .hbm, ⟨6, _⟩ => ⟨S2000x1, .f32⟩
  | .hbm, ⟨7, _⟩ => ⟨S2000, .f32⟩
  | .hbm, ⟨8, _⟩ => ⟨S2000x1, .f32⟩
  | .hbm, ⟨9, _⟩ => ⟨S2000, .f32⟩
  | .hbm, ⟨10, _⟩ => ⟨S2000, .f32⟩
  | .hbm, ⟨11, _⟩ => ⟨S2000, .f32⟩
  | .hbm, ⟨12, _⟩ => ⟨S2000, .f32⟩
  | .hbm, ⟨13, _⟩ => ⟨S512x1, .f32⟩
  | .hbm, ⟨14, _⟩ => ⟨S512, .f32⟩
  | .hbm, ⟨15, _⟩ => ⟨S512x1, .f32⟩
  | .hbm, ⟨16, _⟩ => ⟨S512, .f32⟩
  | .hbm, ⟨17, _⟩ => ⟨S512x1, .f32⟩
  | .hbm, ⟨18, _⟩ => ⟨S512, .f32⟩
  | .hbm, ⟨19, _⟩ => ⟨S512x1, .f32⟩
  | .hbm, ⟨20, _⟩ => ⟨S512, .f32⟩
  | .hbm, ⟨21, _⟩ => ⟨S512, .f32⟩
  | .hbm, ⟨22, _⟩ => ⟨S512, .f32⟩
  | .hbm, ⟨23, _⟩ => ⟨S512, .f32⟩
  | .hbm, ⟨24, _⟩ => ⟨S2000x1, .f32⟩
  | .hbm, ⟨25, _⟩ => ⟨S1x512, .f32⟩
  | .hbm, ⟨26, _⟩ => ⟨S2000x512, .f32⟩
  | .hbm, ⟨27, _⟩ => ⟨S2000x512, .f32⟩
  | .hbm, ⟨28, _⟩ => ⟨S2000x512, .f32⟩
  | .hbm, ⟨29, _⟩ => ⟨S2000x1, .f32⟩
  | .hbm, ⟨30, _⟩ => ⟨S1x512, .f32⟩
  | .hbm, ⟨31, _⟩ => ⟨S2000x512, .f32⟩
  | .hbm, ⟨32, _⟩ => ⟨S2000x512, .f32⟩
  | .hbm, ⟨33, _⟩ => ⟨S2000x512, .f32⟩
  | .hbm, ⟨34, _⟩ => ⟨S2000x1, .f32⟩
  | .hbm, ⟨35, _⟩ => ⟨S1x512, .f32⟩
  | .hbm, ⟨36, _⟩ => ⟨S2000x512, .f32⟩
  | .hbm, ⟨37, _⟩ => ⟨S2000x512, .f32⟩
  | .hbm, ⟨38, _⟩ => ⟨S2000x512, .f32⟩
  | .hbm, ⟨39, _⟩ => ⟨S2000x1, .f32⟩
  | .hbm, ⟨40, _⟩ => ⟨S1x512, .f32⟩
  | .hbm, ⟨41, _⟩ => ⟨S2000x512, .f32⟩
  | .hbm, ⟨42, _⟩ => ⟨S2000x512, .f32⟩
  | .hbm, ⟨43, _⟩ => ⟨S2000x512, .f32⟩
  | .hbm, ⟨44, _⟩ => ⟨S2000x512, .f32⟩
  | .hbm, ⟨45, _⟩ => ⟨S_, .f32⟩
  | .hbm, ⟨46, _⟩ => ⟨S2000x512, .f32⟩
  | .hbm, ⟨47, _⟩ => ⟨S2000x512, .f32⟩
  | .hbm, ⟨48, _⟩ => ⟨S2000x512, .f32⟩
  | .hbm, ⟨49, _⟩ => ⟨S_, .f32⟩
  | .hbm, ⟨50, _⟩ => ⟨S2000x512, .f32⟩
  | .hbm, ⟨51, _⟩ => ⟨S2000x512, .f32⟩
  | .hbm, ⟨52, _⟩ => ⟨S2000x512, .f32⟩
  | .hbm, ⟨53, _⟩ => ⟨S2000x1, .f32⟩
  | .hbm, ⟨54, _⟩ => ⟨S1x512, .f32⟩
  | .hbm, ⟨55, _⟩ => ⟨S2000x512, .f32⟩
  | .hbm, ⟨56, _⟩ => ⟨S2000x512, .f32⟩
  | .hbm, ⟨57, _⟩ => ⟨S2000x512, .f32⟩
  | .hbm, ⟨58, _⟩ => ⟨S2000x512, .f32⟩
  | .hbm, ⟨59, _⟩ => ⟨S2000x512, .f32⟩
  | .hbm, ⟨60, _⟩ => ⟨S2000x1, .f32⟩
  | .hbm, ⟨61, _⟩ => ⟨S1x2000, .f32⟩
  | .hbm, ⟨62, _⟩ => ⟨S2000x2000, .f32⟩
  | .hbm, ⟨63, _⟩ => ⟨S2000x2000, .f32⟩
  | .hbm, ⟨64, _⟩ => ⟨S2000x2000, .f32⟩
  | .hbm, ⟨65, _⟩ => ⟨S2000x1, .f32⟩
  | .hbm, ⟨66, _⟩ => ⟨S1x2000, .f32⟩
  | .hbm, ⟨67, _⟩ => ⟨S2000x2000, .f32⟩
  | .hbm, ⟨68, _⟩ => ⟨S2000x2000, .f32⟩
  | .hbm, ⟨69, _⟩ => ⟨S2000x2000, .f32⟩
  | .hbm, ⟨70, _⟩ => ⟨S2000x1, .f32⟩
  | .hbm, ⟨71, _⟩ => ⟨S1x2000, .f32⟩
  | .hbm, ⟨72, _⟩ => ⟨S2000x2000, .f32⟩
  | .hbm, ⟨73, _⟩ => ⟨S2000x2000, .f32⟩
  | .hbm, ⟨74, _⟩ => ⟨S2000x2000, .f32⟩
  | .hbm, ⟨75, _⟩ => ⟨S2000x1, .f32⟩
  | .hbm, ⟨76, _⟩ => ⟨S1x2000, .f32⟩
  | .hbm, ⟨77, _⟩ => ⟨S2000x2000, .f32⟩
  | .hbm, ⟨78, _⟩ => ⟨S2000x2000, .f32⟩
  | .hbm, ⟨79, _⟩ => ⟨S2000x2000, .f32⟩
  | .hbm, ⟨80, _⟩ => ⟨S2000x2000, .f32⟩
  | .hbm, ⟨81, _⟩ => ⟨S_, .f32⟩
  | .hbm, ⟨82, _⟩ => ⟨S2000x2000, .f32⟩
  | .hbm, ⟨83, _⟩ => ⟨S2000x2000, .f32⟩
  | .hbm, ⟨84, _⟩ => ⟨S2000x2000, .f32⟩
  | .hbm, ⟨85, _⟩ => ⟨S_, .f32⟩
  | .hbm, ⟨86, _⟩ => ⟨S2000x2000, .f32⟩
  | .hbm, ⟨87, _⟩ => ⟨S2000x2000, .f32⟩
  | .hbm, ⟨88, _⟩ => ⟨S2000x2000, .f32⟩
  | .hbm, ⟨89, _⟩ => ⟨S2000x1, .f32⟩
  | .hbm, ⟨90, _⟩ => ⟨S1x2000, .f32⟩
  | .hbm, ⟨91, _⟩ => ⟨S2000x2000, .f32⟩
  | .hbm, ⟨92, _⟩ => ⟨S2000x2000, .f32⟩
  | .hbm, ⟨93, _⟩ => ⟨S2000x2000, .f32⟩
  | .hbm, ⟨94, _⟩ => ⟨S2000x2000, .f32⟩
  | .hbm, ⟨95, _⟩ => ⟨S2000x2000, .f32⟩
  | .hbm, ⟨96, _⟩ => ⟨S_, .f32⟩
  | .hbm, ⟨97, _⟩ => ⟨S2000x2000, .f32⟩
  | .hbm, ⟨98, _⟩ => ⟨S2000x2000, .i1⟩
  | _, _ => ⟨S2000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_v40 : Ref sig .tc := ⟨.hbm, 42, rfl⟩
abbrev main_v41 : Ref sig .tc := ⟨.hbm, 43, rfl⟩
abbrev main_v42 : Ref sig .tc := ⟨.hbm, 44, rfl⟩
abbrev main_cst : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_cst_0 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩
abbrev main_v60 : Ref sig .tc := ⟨.hbm, 64, rfl⟩
abbrev main_v61 : Ref sig .tc := ⟨.hbm, 65, rfl⟩
abbrev main_v62 : Ref sig .tc := ⟨.hbm, 66, rfl⟩
abbrev main_v63 : Ref sig .tc := ⟨.hbm, 67, rfl⟩
abbrev main_v64 : Ref sig .tc := ⟨.hbm, 68, rfl⟩
abbrev main_v65 : Ref sig .tc := ⟨.hbm, 69, rfl⟩
abbrev main_v66 : Ref sig .tc := ⟨.hbm, 70, rfl⟩
abbrev main_v67 : Ref sig .tc := ⟨.hbm, 71, rfl⟩
abbrev main_v68 : Ref sig .tc := ⟨.hbm, 72, rfl⟩
abbrev main_v69 : Ref sig .tc := ⟨.hbm, 73, rfl⟩
abbrev main_v70 : Ref sig .tc := ⟨.hbm, 74, rfl⟩
abbrev main_v71 : Ref sig .tc := ⟨.hbm, 75, rfl⟩
abbrev main_v72 : Ref sig .tc := ⟨.hbm, 76, rfl⟩
abbrev main_v73 : Ref sig .tc := ⟨.hbm, 77, rfl⟩
abbrev main_v74 : Ref sig .tc := ⟨.hbm, 78, rfl⟩
abbrev main_v75 : Ref sig .tc := ⟨.hbm, 79, rfl⟩
abbrev main_v76 : Ref sig .tc := ⟨.hbm, 80, rfl⟩
abbrev main_cst_1 : Ref sig .tc := ⟨.hbm, 81, rfl⟩
abbrev main_v77 : Ref sig .tc := ⟨.hbm, 82, rfl⟩
abbrev main_v78 : Ref sig .tc := ⟨.hbm, 83, rfl⟩
abbrev main_v79 : Ref sig .tc := ⟨.hbm, 84, rfl⟩
abbrev main_cst_2 : Ref sig .tc := ⟨.hbm, 85, rfl⟩
abbrev main_v80 : Ref sig .tc := ⟨.hbm, 86, rfl⟩
abbrev main_v81 : Ref sig .tc := ⟨.hbm, 87, rfl⟩
abbrev main_v82 : Ref sig .tc := ⟨.hbm, 88, rfl⟩
abbrev main_v83 : Ref sig .tc := ⟨.hbm, 89, rfl⟩
abbrev main_v84 : Ref sig .tc := ⟨.hbm, 90, rfl⟩
abbrev main_v85 : Ref sig .tc := ⟨.hbm, 91, rfl⟩
abbrev main_v86 : Ref sig .tc := ⟨.hbm, 92, rfl⟩
abbrev main_v87 : Ref sig .tc := ⟨.hbm, 93, rfl⟩
abbrev main_v88 : Ref sig .tc := ⟨.hbm, 94, rfl⟩
abbrev main_v89 : Ref sig .tc := ⟨.hbm, 95, rfl⟩
abbrev main_cst_3 : Ref sig .tc := ⟨.hbm, 96, rfl⟩
abbrev main_v90 : Ref sig .tc := ⟨.hbm, 97, rfl⟩
abbrev main_v91 : Ref sig .tc := ⟨.hbm, 98, rfl⟩

abbrev nD : Nat := 1
abbrev τ : Topo := Topo.v7x

variable {F : FTy → Type} [FloatOps F]

class Facts₀ : Prop where
  slices_S2000x4_S2000x1_0_0 : S2000x4.Slices ![0, 0] S2000x1
  shapeCasts_S2000x1_S2000 : S2000x1.ShapeCasts S2000
  slices_S2000x4_S2000x1_0_1 : S2000x4.Slices ![0, 1] S2000x1
  slices_S2000x4_S2000x1_0_2 : S2000x4.Slices ![0, 2] S2000x1
  slices_S2000x4_S2000x1_0_3 : S2000x4.Slices ![0, 3] S2000x1
  slices_S512x4_S512x1_0_0 : S512x4.Slices ![0, 0] S512x1
  shapeCasts_S512x1_S512 : S512x1.ShapeCasts S512
  slices_S512x4_S512x1_0_1 : S512x4.Slices ![0, 1] S512x1
  slices_S512x4_S512x1_0_2 : S512x4.Slices ![0, 2] S512x1
  slices_S512x4_S512x1_0_3 : S512x4.Slices ![0, 3] S512x1
  bcast_S2000_S2000x1_0 : S2000.BroadcastsInDim S2000x1 (![0] : Fin 1 → Fin S2000x1.rank)
  bcast_S512_S1x512_1 : S512.BroadcastsInDim S1x512 (![1] : Fin 1 → Fin S1x512.rank)
  bcast_S2000x1_S2000x512_0_1 : S2000x1.BroadcastsInDim S2000x512 (![0, 1] : Fin 2 → Fin S2000x512.rank)
  bcast_S1x512_S2000x512_0_1 : S1x512.BroadcastsInDim S2000x512 (![0, 1] : Fin 2 → Fin S2000x512.rank)
  bcast_S_S2000x512 : S_.BroadcastsInDim S2000x512 (![] : Fin 0 → Fin S2000x512.rank)
  bcast_S2000_S1x2000_1 : S2000.BroadcastsInDim S1x2000 (![1] : Fin 1 → Fin S1x2000.rank)
  bcast_S2000x1_S2000x2000_0_1 : S2000x1.BroadcastsInDim S2000x2000 (![0, 1] : Fin 2 → Fin S2000x2000.rank)
  bcast_S1x2000_S2000x2000_0_1 : S1x2000.BroadcastsInDim S2000x2000 (![0, 1] : Fin 2 → Fin S2000x2000.rank)
  bcast_S_S2000x2000 : S_.BroadcastsInDim S2000x2000 (![] : Fin 0 → Fin S2000x2000.rank)

variable [Facts₀]

class Facts : Prop extends Facts₀ where

variable [Facts]
-- ==== Proof.KernelFrame.lean ====
/-
  The frame run of the pairwise-IoU program, with every output array named.

  @main is 36 host lines (the five per-box columns x1, y1, x2, y2, area of each box list, stacked as a
  2000×5 array, a 512×5 array, and their transposes), ONE pipelined region over 5 row tiles of 400 detections,
  and 4 host lines turning the region's 32-bit mask into booleans. At every grid point the body loads the
  point's 400×5 tile and the two whole transposed tables, and stores three whole blocks: the 400×512 IoU
  against the ground-truth boxes, the 400×2000 IoU against all detections, and that block compared with 0.2.
  The body reads nothing it did not load from an input window (the loads of the output buffers are dead),
  so each output block is a function of the three input blocks, and the run ends with each output array at
  what the write-backs leave, every argument unchanged. Everything here holds at any float instance.
-/
import proofs.«175029_j12867722019170_2_alg».proof.Proof.Gen.Kernel.Launch
import proofs.«175029_j12867722019170_2_alg».proof.Proof.Gen.Kernel.Skeleton
import proofs.«175029_j12867722019170_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Iou

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- What core c's buffers hold when the region is entered: the launch memory after the 36 host lines. -/
abbrev entryVal (c : Dev nD) : Valuation τ sig (Elt F) := StableHlo.after (List.flatten [hostOps0]) (fun b => m (c, b))
/-- The same, read at a TensorCore reference. -/
abbrev atEntry (c : Dev nD) (b : Ref sig .tc) : Buf (Elt F) ((c : Thread nD τ).loc b) := entryVal m c (Proc.devRef .tc b)

/-- No host line allocates. -/
theorem prefix_fresh : (hostOps0 : List (HloOp τ sig (Elt F))).Forall fun op => op.fresh = ∅ := by
  simp only [List.Forall]; repeat' constructor
theorem suffix_fresh : (hostOps1 : List (HloOp τ sig (Elt F))).Forall fun op => op.fresh = ∅ := by
  simp only [List.Forall]; repeat' constructor

/-- @main is the host lines, the region, the host lines: it reduces to the region continued by the last four lines. -/
theorem main_around (𝒱₀ : Variants) : Pipeline.HMainK (Ix := Unit) (Name := ℕ) (U := UR sig nD τ) (Lvl := ℕ) cfgs 0 defs₀ 𝒱₀ m (main (F := F)) (atEntry m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact prefix_fresh) main_chain

/-- The last four lines touch only the region's arrays and buffers that bypass it, -/
theorem suffix_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem suffix_fresh' : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp suffix_fresh) op hop
/-- and write none of the six windowed arrays (each writes its own result buffer only). -/
theorem suffix_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro w; fin_cases w <;> simp only [StableHlo.nullary_writes, StableHlo.unary_writes, StableHlo.binary_writes, Finset.mem_singleton] <;> exact StableHlo.devRef_ne_of_ne (by decide)

/-- None of the 36 lines writes the detections: the region finds them as launched. -/
theorem atEntry_arg0 (c : Dev nD) : atEntry m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- Nor the ground-truth boxes. -/
theorem atEntry_arg1 (c : Dev nD) : atEntry m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- The last four lines do not write the detections either: they end as launched. -/
theorem atExit_arg0 (dats : (p : Fin _) → (c : Dev nD) → Dat τ (Elt F) Unit ℕ (UR sig nD τ) ℕ (cfgs p) c) (c : Dev nD) :
    Pipeline.afterTail₀ cfgs dats 0 (entryVal m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, Finset.mem_singleton]
      repeat' apply And.intro
      all_goals exact StableHlo.devRef_ne_of_ne (by decide))),
    Pipeline.withArrays_of_ne _ c (entryVal m c) _ main_arg0 (by exact (by decide : ∀ w, Pipeline.arrRef spec0 w ≠ main_arg0))]
  exact atEntry_arg0 m c
theorem atExit_arg1 (dats : (p : Fin _) → (c : Dev nD) → Dat τ (Elt F) Unit ℕ (UR sig nD τ) ℕ (cfgs p) c) (c : Dev nD) :
    Pipeline.afterTail₀ cfgs dats 0 (entryVal m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, Finset.mem_singleton]
      repeat' apply And.intro
      all_goals exact StableHlo.devRef_ne_of_ne (by decide))),
    Pipeline.withArrays_of_ne _ c (entryVal m c) _ main_arg1 (by exact (by decide : ∀ w, Pipeline.arrRef spec0 w ≠ main_arg1))]
  exact atEntry_arg1 m c

/-! ## The windows' blocks -/

/-- Window w's block at point t, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- An input window's current staging buffer holds its block at every point, fetched there or not (the two
    transposed tables are fetched once; their block index never moves), for any proof data whose array is the
    entry contents and whose body leaves the block in place. -/
theorem found_in0 {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem found_in1 {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem found_in2 {c : Dev nD} (dat : Dat τ (Elt F) Unit ℕ (UR sig nD τ) ℕ cfg0 c) (hA : dat.A 2 = atEntry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-! ## What the body leaves in each output buffer -/

/-- The body's five accesses are whole-buffer rectangles. -/
abbrev rTile : Rect S400x5 := Rect.unit (s := S400x5) ![0, 0] S400x5.size inb_S400x5_S400x5_0_0
abbrev rDets : Rect S5x2000 := Rect.unit (s := S5x2000) ![0, 0] S5x2000.size inb_S5x2000_S5x2000_0_0
abbrev rGts : Rect S5x512 := Rect.unit (s := S5x512) ![0, 0] S5x512.size inb_S5x512_S5x512_0_0
abbrev rDtGt : Rect S400x512 := Rect.unit (s := S400x512) ![0, 0] S400x512.size inb_S400x512_S400x512_0_0
abbrev rDtDt : Rect S400x2000 := Rect.unit (s := S400x2000) ![0, 0] S400x2000.size inb_S400x2000_S400x2000_0_0

/-- The 400×512 block of IoUs of the tile's boxes against the ground-truth boxes: the one store into window 3. -/
def dtGtBlock (x0 : Vec F S400x5 .f32) (x2 : Vec F S5x512 .f32) : Vec F S400x512 .f32 :=
  View.canon [⟨rDtGt, k0_pay9 (View.ld x0 rTile) (View.ld x2 rGts)⟩]

/-- The 400×2000 block of IoUs of the tile's boxes against all detections: the one store into window 4. -/
def dtDtBlock (x0 : Vec F S400x5 .f32) (x1 : Vec F S5x2000 .f32) : Vec F S400x2000 .f32 :=
  View.canon [⟨rDtDt, k0_pay1 (k0_pay5 (View.ld x0 rTile)) (k0_pay6 (View.ld x0 rTile)) (k0_pay7 (View.ld x0 rTile)) (k0_pay8 (View.ld x0 rTile))
    (k0_pay11 (View.ld x1 rDets)) (k0_pay12 (View.ld x1 rDets)) (k0_pay13 (View.ld x1 rDets)) (k0_pay14 (View.ld x1 rDets))
    (k0_pay15 (View.ld x0 rTile)) (k0_pay16 (View.ld x1 rDets))⟩]

/-- That block compared with 0.2, as 32-bit words: the one store into window 5. -/
def maskBlock (x0 : Vec F S400x5 .f32) (x1 : Vec F S5x2000 .f32) : Vec F S400x2000 .i32 :=
  View.canon [⟨rDtDt, k0_pay2 (k0_pay5 (View.ld x0 rTile)) (k0_pay6 (View.ld x0 rTile)) (k0_pay7 (View.ld x0 rTile)) (k0_pay8 (View.ld x0 rTile))
    (k0_pay11 (View.ld x1 rDets)) (k0_pay12 (View.ld x1 rDets)) (k0_pay13 (View.ld x1 rDets)) (k0_pay14 (View.ld x1 rDets))
    (k0_pay15 (View.ld x0 rTile)) (k0_pay16 (View.ld x1 rDets))⟩]

/-- A whole-buffer store covers the buffer. -/
theorem cover_dtGt (p0 : Vec F S400x512 .f32) (y : S400x512.Idx) :
    ∃ pc ∈ ([⟨rDtGt, p0⟩] : List (View.Piece (Elt F) S400x512 .f32)), y ∈ pc.1.set :=
  View.cover_of_tiled [⟨rDtGt, p0⟩] S400x512.size (by rfl) y
theorem cover_dtDt (p0 : Vec F S400x2000 .f32) (y : S400x2000.Idx) :
    ∃ pc ∈ ([⟨rDtDt, p0⟩] : List (View.Piece (Elt F) S400x2000 .f32)), y ∈ pc.1.set :=
  View.cover_of_tiled [⟨rDtDt, p0⟩] S400x2000.size (by rfl) y
theorem cover_mask (p0 : Vec F S400x2000 .i32) (y : S400x2000.Idx) :
    ∃ pc ∈ ([⟨rDtDt, p0⟩] : List (View.Piece (Elt F) S400x2000 .i32)), y ∈ pc.1.set :=
  View.cover_of_tiled [⟨rDtDt, p0⟩] S400x2000.size (by rfl) y

/-! ## The body's triple -/

set_option maxHeartbeats 1000000 in
/-- The body on whole staging memrefs — the inputs' at contents x0, x1, x2, the outputs' at anything — runs to the
    continuation holding the inputs' unchanged and the three outputs' at the three blocks above. -/
theorem body_triple (c : Dev nD) (E : Set ℕ) (i : grid0.Coords)
    (arg1 : Memref sig .tc .vmem S400x5 .f32) (harg1 : arg1.IsWhole) (arg2 : Memref sig .tc .vmem S5x2000 .f32) (harg2 : arg2.IsWhole)
    (arg3 : Memref sig .tc .vmem S5x512 .f32) (harg3 : arg3.IsWhole) (arg4 : Memref sig .tc .vmem S400x512 .f32) (harg4 : arg4.IsWhole)
    (arg5 : Memref sig .tc .vmem S400x2000 .f32) (harg5 : arg5.IsWhole) (arg6 : Memref sig .tc .vmem S400x2000 .i32) (harg6 : arg6.IsWhole)
    (x0 : Vec F S400x5 .f32) (x1 : Vec F S5x2000 .f32) (x2 : Vec F S5x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (dtGtBlock x0 x2) ∗ owns (c : Thread nD τ) arg5 fullShare (dtDtBlock x0 x1)
            ∗ owns (c : Thread nD τ) arg6 fullShare (maskBlock x0 x1)) -∗ K ⟨⟩))
      ⊢ wp frame (wpE (defs₀ (F := F)) Variants.none c none) E (cc0__iou_neighbour_kernel i arg1 harg1 arg2 harg2 arg3 harg3 arg4 harg4 arg5 harg5 arg6 harg6) K := by
  simp only [cc0__iou_neighbour_kernel_eq_skeleton]; unfold cc0__iou_neighbour_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    try dsimp only
    exact View.read_writes_eq_canon _ _ _ (cover_dtGt _)
  isplitl [H4]
  · iexists _; isplitr
    swap; · iexact H4
    ipureintro
    try dsimp only
    exact View.read_writes_eq_canon _ _ _ (cover_dtDt _)
  iexists _; isplitr
  swap; · iexact H5
  ipureintro
  try dsimp only
  exact View.read_writes_eq_canon _ _ _ (cover_mask _)

/-! ## The pipeline's proof data -/

/-- On core c: the arrays as the region finds them; after the body at point t each input's buffer at its block and
    each output's at its block of the point's input blocks; the invariant the scoped rest and the generator
    register, untouched; nothing owed; full shares. -/
def dats (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => dtGtBlock (blockAt m c 0 t) (blockAt m c 2 t)
    | ⟨4, _⟩ => dtDtBlock (blockAt m c 0 t) (blockAt m c 1 t)
    | ⟨5, _⟩ => maskBlock (blockAt m c 0 t) (blockAt m c 1 t)
  Φ _ := Pipeline.ΦA spec0 c
  q _ := fullShare
  owed _ := 0

theorem A_eq (c : Dev nD) (w : Fin cfg0.W) : (dats m 0 c).A w = atEntry m c (Pipeline.arrRef spec0 w) := by
  dsimp only [dats]

theorem after_0 (c : Dev nD) (t : Fin cfg0.N) : (dats m 0 c).after 0 t = blockAt m c 0 t := by dsimp only [dats]
theorem after_1 (c : Dev nD) (t : Fin cfg0.N) : (dats m 0 c).after 1 t = blockAt m c 1 t := by dsimp only [dats]
theorem after_2 (c : Dev nD) (t : Fin cfg0.N) : (dats m 0 c).after 2 t = blockAt m c 2 t := by dsimp only [dats]
theorem after_3 (c : Dev nD) (t : Fin cfg0.N) : (dats m 0 c).after 3 t = dtGtBlock (blockAt m c 0 t) (blockAt m c 2 t) := by dsimp only [dats]
theorem after_4 (c : Dev nD) (t : Fin cfg0.N) : (dats m 0 c).after 4 t = dtDtBlock (blockAt m c 0 t) (blockAt m c 1 t) := by dsimp only [dats]
theorem after_5 (c : Dev nD) (t : Fin cfg0.N) : (dats m 0 c).after 5 t = maskBlock (blockAt m c 0 t) (blockAt m c 1 t) := by dsimp only [dats]

theorem before_0 (c : Dev nD) (t : Fin cfg0.N) (d) : (dats m 0 c).before 0 t d = blockAt m c 0 t :=
  found_in0 m (dats m 0 c) (A_eq m c 0) (after_0 m c) t d
theorem before_1 (c : Dev nD) (t : Fin cfg0.N) (d) : (dats m 0 c).before 1 t d = blockAt m c 1 t :=
  found_in1 m (dats m 0 c) (A_eq m c 1) (after_1 m c) t d
theorem before_2 (c : Dev nD) (t : Fin cfg0.N) (d) : (dats m 0 c).before 2 t d = blockAt m c 2 t :=
  found_in2 m (dats m 0 c) (A_eq m c 2) (after_2 m c) t d

/-! ## The body obligation -/

/-- What the body is called with at point t, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the triple applies; the invariant and the
    core's debts pass through unread. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (body_triple c Set.univ (grid0.coords t) _ _ _ _ _ _ _ _ _ _ _ _ (blockAt m c 0 t) (blockAt m c 1 t) (blockAt m c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact body_at m c t

/-! ## The run -/

set_option backward.isDefEq.respectTransparency.types false in
/-- From any memory with zero counters, every weakly fair execution of @main terminates, and every final state has
    each of the six windowed arrays at what the write-backs leave and every other unscoped buffer as the last four
    host lines leave it. -/
theorem run_main : θ_run defs (onTc (τ := τ) (main (F := F))) (s₀ m ρ) (Pipeline.FramePost cfgs (dats m) 0 (Pipeline.afterTail₀ cfgs (dats m) 0 (entryVal m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := entryVal m) (opss := [hostOps1]) (hsub := suffix_sub) (hfresh := suffix_fresh') (hkeep := suffix_keeps)
    (hmain := main_around m Variants.none) (hA := A_eq m) (hΦ := fun _ _ => rfl)

/-- The frame: every weakly fair execution terminates, nothing faults, and both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (atExit_arg0 m (dats m) c),
     ((h c).2 main_arg1 (Pipeline.mem_restRefs_of main_arg1 (by decide) (by decide))).trans (atExit_arg1 m (dats m) c)⟩) (run_main m ρ)

end Cert.Kernel.Iou

end
-- ==== Proof.KernelIdealFrame.lean ====
/-
  The frame run of the pairwise-IoU program, with every output array named.

  @main is 36 host lines (the five per-box columns x1, y1, x2, y2, area of each box list, stacked as a
  2000×5 array, a 512×5 array, and their transposes), ONE pipelined region over 5 row tiles of 400 detections,
  and 4 host lines turning the region's 32-bit mask into booleans. At every grid point the body loads the
  point's 400×5 tile and the two whole transposed tables, and stores three whole blocks: the 400×512 IoU
  against the ground-truth boxes, the 400×2000 IoU against all detections, and that block compared with 0.2.
  The body reads nothing it did not load from an input window (the loads of the output buffers are dead),
  so each output block is a function of the three input blocks, and the run ends with each output array at
  what the write-backs leave, every argument unchanged. Everything here holds at any float instance.
-/
import proofs.«175029_j12867722019170_2_alg».proof.Proof.Gen.KernelIdeal.Launch
import proofs.«175029_j12867722019170_2_alg».proof.Proof.Gen.KernelIdeal.Skeleton
import proofs.«175029_j12867722019170_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Iou

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- What core c's buffers hold when the region is entered: the launch memory after the 36 host lines. -/
abbrev entryVal (c : Dev nD) : Valuation τ sig (Elt F) := StableHlo.after (List.flatten [hostOps0]) (fun b => m (c, b))
/-- The same, read at a TensorCore reference. -/
abbrev atEntry (c : Dev nD) (b : Ref sig .tc) : Buf (Elt F) ((c : Thread nD τ).loc b) := entryVal m c (Proc.devRef .tc b)

/-- No host line allocates. -/
theorem prefix_fresh : (hostOps0 : List (HloOp τ sig (Elt F))).Forall fun op => op.fresh = ∅ := by
  simp only [List.Forall]; repeat' constructor
theorem suffix_fresh : (hostOps1 : List (HloOp τ sig (Elt F))).Forall fun op => op.fresh = ∅ := by
  simp only [List.Forall]; repeat' constructor

/-- @main is the host lines, the region, the host lines: it reduces to the region continued by the last four lines. -/
theorem main_around (𝒱₀ : Variants) : Pipeline.HMainK (Ix := Unit) (Name := ℕ) (U := UR sig nD τ) (Lvl := ℕ) cfgs 0 defs₀ 𝒱₀ m (main (F := F)) (atEntry m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact prefix_fresh) main_chain

/-- The last four lines touch only the region's arrays and buffers that bypass it, -/
theorem suffix_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem suffix_fresh' : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp suffix_fresh) op hop
/-- and write none of the six windowed arrays (each writes its own result buffer only). -/
theorem suffix_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro w; fin_cases w <;> simp only [StableHlo.nullary_writes, StableHlo.unary_writes, StableHlo.binary_writes, Finset.mem_singleton] <;> exact StableHlo.devRef_ne_of_ne (by decide)

/-- None of the 36 lines writes the detections: the region finds them as launched. -/
theorem atEntry_arg0 (c : Dev nD) : atEntry m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- Nor the ground-truth boxes. -/
theorem atEntry_arg1 (c : Dev nD) : atEntry m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- The last four lines do not write the detections either: they end as launched. -/
theorem atExit_arg0 (dats : (p : Fin _) → (c : Dev nD) → Dat τ (Elt F) Unit ℕ (UR sig nD τ) ℕ (cfgs p) c) (c : Dev nD) :
    Pipeline.afterTail₀ cfgs dats 0 (entryVal m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, Finset.mem_singleton]
      repeat' apply And.intro
      all_goals exact StableHlo.devRef_ne_of_ne (by decide))),
    Pipeline.withArrays_of_ne _ c (entryVal m c) _ main_arg0 (by exact (by decide : ∀ w, Pipeline.arrRef spec0 w ≠ main_arg0))]
  exact atEntry_arg0 m c
theorem atExit_arg1 (dats : (p : Fin _) → (c : Dev nD) → Dat τ (Elt F) Unit ℕ (UR sig nD τ) ℕ (cfgs p) c) (c : Dev nD) :
    Pipeline.afterTail₀ cfgs dats 0 (entryVal m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, Finset.mem_singleton]
      repeat' apply And.intro
      all_goals exact StableHlo.devRef_ne_of_ne (by decide))),
    Pipeline.withArrays_of_ne _ c (entryVal m c) _ main_arg1 (by exact (by decide : ∀ w, Pipeline.arrRef spec0 w ≠ main_arg1))]
  exact atEntry_arg1 m c

/-! ## The windows' blocks -/

/-- Window w's block at point t, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- An input window's current staging buffer holds its block at every point, fetched there or not (the two
    transposed tables are fetched once; their block index never moves), for any proof data whose array is the
    entry contents and whose body leaves the block in place. -/
theorem found_in0 {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem found_in1 {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem found_in2 {c : Dev nD} (dat : Dat τ (Elt F) Unit ℕ (UR sig nD τ) ℕ cfg0 c) (hA : dat.A 2 = atEntry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-! ## What the body leaves in each output buffer -/

/-- The body's five accesses are whole-buffer rectangles. -/
abbrev rTile : Rect S400x5 := Rect.unit (s := S400x5) ![0, 0] S400x5.size inb_S400x5_S400x5_0_0
abbrev rDets : Rect S5x2000 := Rect.unit (s := S5x2000) ![0, 0] S5x2000.size inb_S5x2000_S5x2000_0_0
abbrev rGts : Rect S5x512 := Rect.unit (s := S5x512) ![0, 0] S5x512.size inb_S5x512_S5x512_0_0
abbrev rDtGt : Rect S400x512 := Rect.unit (s := S400x512) ![0, 0] S400x512.size inb_S400x512_S400x512_0_0
abbrev rDtDt : Rect S400x2000 := Rect.unit (s := S400x2000) ![0, 0] S400x2000.size inb_S400x2000_S400x2000_0_0

/-- The 400×512 block of IoUs of the tile's boxes against the ground-truth boxes: the one store into window 3. -/
def dtGtBlock (x0 : Vec F S400x5 .f32) (x2 : Vec F S5x512 .f32) : Vec F S400x512 .f32 :=
  View.canon [⟨rDtGt, k0_pay9 (View.ld x0 rTile) (View.ld x2 rGts)⟩]

/-- The 400×2000 block of IoUs of the tile's boxes against all detections: the one store into window 4. -/
def dtDtBlock (x0 : Vec F S400x5 .f32) (x1 : Vec F S5x2000 .f32) : Vec F S400x2000 .f32 :=
  View.canon [⟨rDtDt, k0_pay1 (k0_pay5 (View.ld x0 rTile)) (k0_pay6 (View.ld x0 rTile)) (k0_pay7 (View.ld x0 rTile)) (k0_pay8 (View.ld x0 rTile))
    (k0_pay11 (View.ld x1 rDets)) (k0_pay12 (View.ld x1 rDets)) (k0_pay13 (View.ld x1 rDets)) (k0_pay14 (View.ld x1 rDets))
    (k0_pay15 (View.ld x0 rTile)) (k0_pay16 (View.ld x1 rDets))⟩]

/-- That block compared with 0.2, as 32-bit words: the one store into window 5. -/
def maskBlock (x0 : Vec F S400x5 .f32) (x1 : Vec F S5x2000 .f32) : Vec F S400x2000 .i32 :=
  View.canon [⟨rDtDt, k0_pay2 (k0_pay5 (View.ld x0 rTile)) (k0_pay6 (View.ld x0 rTile)) (k0_pay7 (View.ld x0 rTile)) (k0_pay8 (View.ld x0 rTile))
    (k0_pay11 (View.ld x1 rDets)) (k0_pay12 (View.ld x1 rDets)) (k0_pay13 (View.ld x1 rDets)) (k0_pay14 (View.ld x1 rDets))
    (k0_pay15 (View.ld x0 rTile)) (k0_pay16 (View.ld x1 rDets))⟩]

/-- A whole-buffer store covers the buffer. -/
theorem cover_dtGt (p0 : Vec F S400x512 .f32) (y : S400x512.Idx) :
    ∃ pc ∈ ([⟨rDtGt, p0⟩] : List (View.Piece (Elt F) S400x512 .f32)), y ∈ pc.1.set :=
  View.cover_of_tiled [⟨rDtGt, p0⟩] S400x512.size (by rfl) y
theorem cover_dtDt (p0 : Vec F S400x2000 .f32) (y : S400x2000.Idx) :
    ∃ pc ∈ ([⟨rDtDt, p0⟩] : List (View.Piece (Elt F) S400x2000 .f32)), y ∈ pc.1.set :=
  View.cover_of_tiled [⟨rDtDt, p0⟩] S400x2000.size (by rfl) y
theorem cover_mask (p0 : Vec F S400x2000 .i32) (y : S400x2000.Idx) :
    ∃ pc ∈ ([⟨rDtDt, p0⟩] : List (View.Piece (Elt F) S400x2000 .i32)), y ∈ pc.1.set :=
  View.cover_of_tiled [⟨rDtDt, p0⟩] S400x2000.size (by rfl) y

/-! ## The body's triple -/

set_option maxHeartbeats 1000000 in
/-- The body on whole staging memrefs — the inputs' at contents x0, x1, x2, the outputs' at anything — runs to the
    continuation holding the inputs' unchanged and the three outputs' at the three blocks above. -/
theorem body_triple (c : Dev nD) (E : Set ℕ) (i : grid0.Coords)
    (arg1 : Memref sig .tc .vmem S400x5 .f32) (harg1 : arg1.IsWhole) (arg2 : Memref sig .tc .vmem S5x2000 .f32) (harg2 : arg2.IsWhole)
    (arg3 : Memref sig .tc .vmem S5x512 .f32) (harg3 : arg3.IsWhole) (arg4 : Memref sig .tc .vmem S400x512 .f32) (harg4 : arg4.IsWhole)
    (arg5 : Memref sig .tc .vmem S400x2000 .f32) (harg5 : arg5.IsWhole) (arg6 : Memref sig .tc .vmem S400x2000 .i32) (harg6 : arg6.IsWhole)
    (x0 : Vec F S400x5 .f32) (x1 : Vec F S5x2000 .f32) (x2 : Vec F S5x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (dtGtBlock x0 x2) ∗ owns (c : Thread nD τ) arg5 fullShare (dtDtBlock x0 x1)
            ∗ owns (c : Thread nD τ) arg6 fullShare (maskBlock x0 x1)) -∗ K ⟨⟩))
      ⊢ wp frame (wpE (defs₀ (F := F)) Variants.none c none) E (cc0__iou_neighbour_kernel i arg1 harg1 arg2 harg2 arg3 harg3 arg4 harg4 arg5 harg5 arg6 harg6) K := by
  simp only [cc0__iou_neighbour_kernel_eq_skeleton]; unfold cc0__iou_neighbour_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    try dsimp only
    exact View.read_writes_eq_canon _ _ _ (cover_dtGt _)
  isplitl [H4]
  · iexists _; isplitr
    swap; · iexact H4
    ipureintro
    try dsimp only
    exact View.read_writes_eq_canon _ _ _ (cover_dtDt _)
  iexists _; isplitr
  swap; · iexact H5
  ipureintro
  try dsimp only
  exact View.read_writes_eq_canon _ _ _ (cover_mask _)

/-! ## The pipeline's proof data -/

/-- On core c: the arrays as the region finds them; after the body at point t each input's buffer at its block and
    each output's at its block of the point's input blocks; the invariant the scoped rest and the generator
    register, untouched; nothing owed; full shares. -/
def dats (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => dtGtBlock (blockAt m c 0 t) (blockAt m c 2 t)
    | ⟨4, _⟩ => dtDtBlock (blockAt m c 0 t) (blockAt m c 1 t)
    | ⟨5, _⟩ => maskBlock (blockAt m c 0 t) (blockAt m c 1 t)
  Φ _ := Pipeline.ΦA spec0 c
  q _ := fullShare
  owed _ := 0

theorem A_eq (c : Dev nD) (w : Fin cfg0.W) : (dats m 0 c).A w = atEntry m c (Pipeline.arrRef spec0 w) := by
  dsimp only [dats]

theorem after_0 (c : Dev nD) (t : Fin cfg0.N) : (dats m 0 c).after 0 t = blockAt m c 0 t := by dsimp only [dats]
theorem after_1 (c : Dev nD) (t : Fin cfg0.N) : (dats m 0 c).after 1 t = blockAt m c 1 t := by dsimp only [dats]
theorem after_2 (c : Dev nD) (t : Fin cfg0.N) : (dats m 0 c).after 2 t = blockAt m c 2 t := by dsimp only [dats]
theorem after_3 (c : Dev nD) (t : Fin cfg0.N) : (dats m 0 c).after 3 t = dtGtBlock (blockAt m c 0 t) (blockAt m c 2 t) := by dsimp only [dats]
theorem after_4 (c : Dev nD) (t : Fin cfg0.N) : (dats m 0 c).after 4 t = dtDtBlock (blockAt m c 0 t) (blockAt m c 1 t) := by dsimp only [dats]
theorem after_5 (c : Dev nD) (t : Fin cfg0.N) : (dats m 0 c).after 5 t = maskBlock (blockAt m c 0 t) (blockAt m c 1 t) := by dsimp only [dats]

theorem before_0 (c : Dev nD) (t : Fin cfg0.N) (d) : (dats m 0 c).before 0 t d = blockAt m c 0 t :=
  found_in0 m (dats m 0 c) (A_eq m c 0) (after_0 m c) t d
theorem before_1 (c : Dev nD) (t : Fin cfg0.N) (d) : (dats m 0 c).before 1 t d = blockAt m c 1 t :=
  found_in1 m (dats m 0 c) (A_eq m c 1) (after_1 m c) t d
theorem before_2 (c : Dev nD) (t : Fin cfg0.N) (d) : (dats m 0 c).before 2 t d = blockAt m c 2 t :=
  found_in2 m (dats m 0 c) (A_eq m c 2) (after_2 m c) t d

/-! ## The body obligation -/

/-- What the body is called with at point t, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the triple applies; the invariant and the
    core's debts pass through unread. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (body_triple c Set.univ (grid0.coords t) _ _ _ _ _ _ _ _ _ _ _ _ (blockAt m c 0 t) (blockAt m c 1 t) (blockAt m c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact body_at m c t

/-! ## The run -/

set_option backward.isDefEq.respectTransparency.types false in
/-- From any memory with zero counters, every weakly fair execution of @main terminates, and every final state has
    each of the six windowed arrays at what the write-backs leave and every other unscoped buffer as the last four
    host lines leave it. -/
theorem run_main : θ_run defs (onTc (τ := τ) (main (F := F))) (s₀ m ρ) (Pipeline.FramePost cfgs (dats m) 0 (Pipeline.afterTail₀ cfgs (dats m) 0 (entryVal m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := entryVal m) (opss := [hostOps1]) (hsub := suffix_sub) (hfresh := suffix_fresh') (hkeep := suffix_keeps)
    (hmain := main_around m Variants.none) (hA := A_eq m) (hΦ := fun _ _ => rfl)

/-- The frame: every weakly fair execution terminates, nothing faults, and both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (atExit_arg0 m (dats m) c),
     ((h c).2 main_arg1 (Pipeline.mem_restRefs_of main_arg1 (by decide) (by decide))).trans (atExit_arg1 m (dats m) c)⟩) (run_main m ρ)

end Cert.KernelIdeal.Iou

end
-- ==== Proof.IouSpec.lean ====
/-
  Pairwise intersection-over-union of axis-aligned boxes, on the extended reals.

  A box list is an n×4 array of corners (x1, y1, x2, y2). A box's area is (x2 − x1)·(y2 − y1). For two boxes a, b the
  intersection is max(min(a.x2, b.x2) − max(a.x1, b.x1), 0) · max(min(a.y2, b.y2) − max(a.y1, b.y1), 0), the union
  area(a) + area(b) − intersection, and the IoU their quotient. The three results are the 2000×512 table of IoUs of
  detections against ground-truth boxes, the 2000×2000 table of detections against detections, and that table
  compared (≥) with the single-precision constant nearest 0.2. Each operation is the extended-real one of the
  ideal float instance, written with that instance's own names so that a program's pointwise term unfolds to it.
-/
import Idealize.ShloMosaic.PureOps.Ideal
import Idealize.ShloMosaic.Lib.ValueIdx

noncomputable section

namespace Cert.IouSpec

open Idealize.ShloMosaic Idealize.ShloMosaic.ValueIdx

/-- An n×4 array of box corners. -/
abbrev Boxes (n : Nat) := (⟨2, ![n, 4]⟩ : Shape).Idx → Ideal .f32

/-- The single-precision zero. -/
abbrev zero : Ideal .f32 := FloatOps.ofBits (F := Ideal) .f32 0x00000000#32
/-- The single-precision constant nearest 0.2. -/
abbrev fifth : Ideal .f32 := FloatOps.ofBits (F := Ideal) .f32 0x3E4CCCCD#32

/-- The area of box r: (x2 − x1)·(y2 − y1). -/
def area {n : Nat} (b : Boxes n) (r : Fin n) : Ideal .f32 :=
  FloatOps.mulf (FloatOps.subf (b (ix2 r 2)) (b (ix2 r 0))) (FloatOps.subf (b (ix2 r 3)) (b (ix2 r 1)))

/-- The IoU of two boxes from their corners and areas. -/
def iouOf (a0 a1 a2 a3 a4 b0 b1 b2 b3 b4 : Ideal .f32) : Ideal .f32 :=
  FloatOps.divf
    (FloatOps.mulf (FloatOps.maximumf (FloatOps.subf (FloatOps.minimumf a2 b2) (FloatOps.maximumf a0 b0)) zero)
      (FloatOps.maximumf (FloatOps.subf (FloatOps.minimumf a3 b3) (FloatOps.maximumf a1 b1)) zero))
    (FloatOps.subf (FloatOps.addf a4 b4)
      (FloatOps.mulf (FloatOps.maximumf (FloatOps.subf (FloatOps.minimumf a2 b2) (FloatOps.maximumf a0 b0)) zero)
        (FloatOps.maximumf (FloatOps.subf (FloatOps.minimumf a3 b3) (FloatOps.maximumf a1 b1)) zero)))

/-- The IoU of box p of one list against box q of another. -/
def iou {n k : Nat} (a : Boxes n) (b : Boxes k) (p : Fin n) (q : Fin k) : Ideal .f32 :=
  iouOf (a (ix2 p 0)) (a (ix2 p 1)) (a (ix2 p 2)) (a (ix2 p 3)) (area a p)
    (b (ix2 q 0)) (b (ix2 q 1)) (b (ix2 q 2)) (b (ix2 q 3)) (area b q)

/-- Detections against ground-truth boxes. -/
def dtGt (dt : Boxes 2000) (gt : Boxes 512) : (⟨2, ![2000, 512]⟩ : Shape).Idx → Ideal .f32 :=
  fun i => iou dt gt (i 0) (i 1)

/-- Detections against detections. -/
def dtDt (dt : Boxes 2000) : (⟨2, ![2000, 2000]⟩ : Shape).Idx → Ideal .f32 :=
  fun i => iou dt dt (i 0) (i 1)

/-- Which pairs of detections overlap by at least the threshold. -/
def neighbour (dt : Boxes 2000) : (⟨2, ![2000, 2000]⟩ : Shape).Idx → BitVec 1 :=
  fun i => FloatOps.cmpf (F := Ideal) .oge (dtDt dt i) fifth

end Cert.IouSpec

end
-- ==== Proof.LibColumns.lean ====
/-
  Columns and rows of small tables, read at an index; a five-operand host line.

  For any element type: a column [a,1] broadcast along b lanes; column o of an a×n array sliced out and broadcast;
  row o of an n×b array sliced out and broadcast; column o of an n×w array as a length-n vector (slice, then
  reshape [n,1] → [n]); a length-n vector as a column (broadcast_in_dim [n] → [n,1]); five columns stacked side by
  side (a concatenation of five [n,1] pieces along axis 1), read at (r, k); a transposed table. And for a host
  operation over a literal family of FIVE operand buffers, what its result buffer holds, with each operand's contents
  at its own reference; and the one-bit word recovered from its zero-extension compared with zero.
-/
import Idealize.ShloMosaic.Lib.ValueIdx
import Idealize.ShloMosaic.Lib.ValueLayout
import Idealize.ShloMosaic.Lib.Pipeline.Value
import Idealize.ShloMosaic.Lib.StableHlo.Run

noncomputable section

namespace Cert.LibColumns

open Idealize.ShloMosaic Idealize.ShloMosaic.ValueIdx

section Layout
variable {α : Type}

/-- A column broadcast along the lanes reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Column o of an a×n array, broadcast along b lanes, reads at (p, q) the array at (p, o). -/
theorem colBroadcast_apply {a b n : ℕ} (o : ℕ) (v : (⟨2, ![a, n]⟩ : Shape).Idx → α)
    (h1 : (⟨2, ![a, n]⟩ : Shape).ShapeCasts ⟨2, ![a, n]⟩) (h2 : (⟨2, ![a, n]⟩ : Shape).Slices ![0, o] ⟨2, ![a, 1]⟩)
    (h3 : (⟨2, ![a, 1]⟩ : Shape).Broadcasts ⟨2, ![a, b]⟩) (p : Fin a) (q : Fin b) (k : Fin n) (hk : k.val = o) :
    broadcastTo ⟨2, ![a, b]⟩ (extractStridedSlice ⟨2, ![a, 1]⟩ ![0, o] (shapeCast ⟨2, ![a, n]⟩ v h1) h2) h3 (ix2 p q) = v (ix2 p k) := by
  rw [broadcastTo_a1_ab_apply, shapeCast_self]
  exact slice2_axis1_apply o v h2 p (0 : Fin 1) k (by rw [hk]; rfl)

/-- Row o of an n×b array, broadcast along a sublanes, reads at (p, q) the array at (o, q). -/
theorem rowBroadcast_apply {a b n : ℕ} (o : ℕ) (v : (⟨2, ![n, b]⟩ : Shape).Idx → α)
    (h1 : (⟨2, ![n, b]⟩ : Shape).ShapeCasts ⟨2, ![n, b]⟩) (h2 : (⟨2, ![n, b]⟩ : Shape).Slices ![o, 0] ⟨2, ![1, b]⟩)
    (h3 : (⟨2, ![1, b]⟩ : Shape).Broadcasts ⟨2, ![a, b]⟩) (p : Fin a) (q : Fin b) (k : Fin n) (hk : k.val = o) :
    broadcastTo ⟨2, ![a, b]⟩ (extractStridedSlice ⟨2, ![1, b]⟩ ![o, 0] (shapeCast ⟨2, ![n, b]⟩ v h1) h2) h3 (ix2 p q) = v (ix2 k q) := by
  rw [broadcastTo_1b_ab_apply, shapeCast_self]
  exact slice2_axis0_apply o v h2 (0 : Fin 1) q k (by rw [hk]; rfl)

/-- Column o of an n×w array as a length-n vector reads, at r, the array at (r, o). -/
theorem colVec_apply {n w : ℕ} (o : ℕ) (x : (⟨2, ![n, w]⟩ : Shape).Idx → α)
    (h2 : (⟨2, ![n, w]⟩ : Shape).Slices ![0, o] ⟨2, ![n, 1]⟩) (h1 : (⟨2, ![n, 1]⟩ : Shape).ShapeCasts ⟨1, ![n]⟩)
    (r : Fin n) (k : Fin w) (hk : k.val = o) :
    shapeCast ⟨1, ![n]⟩ (extractStridedSlice ⟨2, ![n, 1]⟩ ![0, o] x h2) h1 (ix1 r) = x (ix2 r k) := by
  rw [shapeCast_apply _ h1 (ix1 r) (ix2 r (0 : Fin 1)) (by
    rw [Shape.rowMajor_val_two, Shape.rowMajor_val_one]
    show r.val * 1 + 0 = r.val
    omega)]
  exact slice2_axis1_apply o x h2 r (0 : Fin 1) k (by rw [hk]; rfl)

/-- A length-n vector as a column reads, at (r, 0), the vector at r. -/
theorem vecCol_apply {n : ℕ} (v : (⟨1, ![n]⟩ : Shape).Idx → α)
    (h : (⟨1, ![n]⟩ : Shape).BroadcastsInDim ⟨2, ![n, 1]⟩ (![0] : Fin 1 → Fin 2)) (r : Fin n) (z : Fin 1) :
    broadcastInDim ⟨2, ![n, 1]⟩ ![0] h v (ix2 r z) = v (ix1 r) := by
  refine broadcastInDim_apply _ h v (ix2 r z) (ix1 r) fun ax => ?_
  match ax with
  | ⟨0, _⟩ =>
    show r.val = if n = 1 then 0 else r.val
    split
    · have := r.isLt; omega
    · rfl

/-- Five columns side by side read, at (r, k), column k at (r, 0): the columns as a family. -/
theorem concat5_family_apply {n : ℕ} (cols : Fin 5 → ((⟨2, ![n, 1]⟩ : Shape).Idx → α))
    (h : Shape.Concatenates [(⟨2, ![n, 1]⟩ : Shape), ⟨2, ![n, 1]⟩, ⟨2, ![n, 1]⟩, ⟨2, ![n, 1]⟩, ⟨2, ![n, 1]⟩] ⟨2, ![n, 5]⟩ 1)
    (r : Fin n) (k : Fin 5) :
    concatenate ⟨2, ![n, 5]⟩ 1 [⟨⟨2, ![n, 1]⟩, cols 0⟩, ⟨⟨2, ![n, 1]⟩, cols 1⟩, ⟨⟨2, ![n, 1]⟩, cols 2⟩, ⟨⟨2, ![n, 1]⟩, cols 3⟩, ⟨⟨2, ![n, 1]⟩, cols 4⟩] h (ix2 r k)
      = cols k (ix2 r (0 : Fin 1)) :=
  concatenate_ofFn_unit_apply (t := ⟨2, ![n, 5]⟩) (s₁ := ⟨2, ![n, 1]⟩) 1 cols h rfl rfl (ix2 r k) k rfl (ix2 r (0 : Fin 1))
    (fun b hb => by
      match b with
      | ⟨0, _⟩ => rfl
      | ⟨1, _⟩ => exact absurd rfl hb)

/-- Five columns side by side read, at (r, k), column k at (r, 0). -/
theorem concat5_apply {n : ℕ} (c0 c1 c2 c3 c4 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩] ⟨2, ![n, 5]⟩ 1)
    (r : Fin n) (k : Fin 5) :
    concatenate ⟨2, ![n, 5]⟩ 1 [⟨⟨2, ![n, 1]⟩, c0⟩, ⟨⟨2, ![n, 1]⟩, c1⟩, ⟨⟨2, ![n, 1]⟩, c2⟩, ⟨⟨2, ![n, 1]⟩, c3⟩, ⟨⟨2, ![n, 1]⟩, c4⟩] h (ix2 r k)
      = (![c0, c1, c2, c3, c4] : Fin 5 → ((⟨2, ![n, 1]⟩ : Shape).Idx → α)) k (ix2 r (0 : Fin 1)) :=
  concat5_family_apply ![c0, c1, c2, c3, c4] h r k

end Layout

/-! ## A box list's feature table -/

section Stack5
variable {F : FTy → Type} [FloatOps F]

/-- Column o of an n×4 array of box corners, stood up as an n×1 column: slice, flatten, broadcast. -/
abbrev boxCol {n : ℕ} (x : (⟨2, ![n, 4]⟩ : Shape).Idx → F .f32) (o : ℕ)
    (hs : (⟨2, ![n, 4]⟩ : Shape).Slices ![0, o] ⟨2, ![n, 1]⟩) (hc : (⟨2, ![n, 1]⟩ : Shape).ShapeCasts ⟨1, ![n]⟩)
    (hb : (⟨1, ![n]⟩ : Shape).BroadcastsInDim ⟨2, ![n, 1]⟩ (![0] : Fin 1 → Fin 2)) : (⟨2, ![n, 1]⟩ : Shape).Idx → F .f32 :=
  broadcastInDim ⟨2, ![n, 1]⟩ ![0] hb (shapeCast ⟨1, ![n]⟩ (extractStridedSlice ⟨2, ![n, 1]⟩ ![0, o] x hs) hc)

/-- The areas (x2 − x1)·(y2 − y1) of the boxes of an n×4 array, as an n×1 column. -/
abbrev areaCol {n : ℕ} (x : (⟨2, ![n, 4]⟩ : Shape).Idx → F .f32)
    (s0 : (⟨2, ![n, 4]⟩ : Shape).Slices ![0, 0] ⟨2, ![n, 1]⟩) (s1 : (⟨2, ![n, 4]⟩ : Shape).Slices ![0, 1] ⟨2, ![n, 1]⟩)
    (s2 : (⟨2, ![n, 4]⟩ : Shape).Slices ![0, 2] ⟨2, ![n, 1]⟩) (s3 : (⟨2, ![n, 4]⟩ : Shape).Slices ![0, 3] ⟨2, ![n, 1]⟩)
    (hc : (⟨2, ![n, 1]⟩ : Shape).ShapeCasts ⟨1, ![n]⟩)
    (hb : (⟨1, ![n]⟩ : Shape).BroadcastsInDim ⟨2, ![n, 1]⟩ (![0] : Fin 1 → Fin 2)) : (⟨2, ![n, 1]⟩ : Shape).Idx → F .f32 :=
  broadcastInDim ⟨2, ![n, 1]⟩ ![0] hb
    (mulf (subf (shapeCast ⟨1, ![n]⟩ (extractStridedSlice ⟨2, ![n, 1]⟩ ![0, 2] x s2) hc) (shapeCast ⟨1, ![n]⟩ (extractStridedSlice ⟨2, ![n, 1]⟩ ![0, 0] x s0) hc))
      (subf (shapeCast ⟨1, ![n]⟩ (extractStridedSlice ⟨2, ![n, 1]⟩ ![0, 3] x s3) hc) (shapeCast ⟨1, ![n]⟩ (extractStridedSlice ⟨2, ![n, 1]⟩ ![0, 1] x s1) hc)))

/-- The n×5 feature table of a box list — its four corner columns and its area column side by side. -/
def stack5 {n : ℕ} (x : (⟨2, ![n, 4]⟩ : Shape).Idx → F .f32)
    (s0 : (⟨2, ![n, 4]⟩ : Shape).Slices ![0, 0] ⟨2, ![n, 1]⟩) (s1 : (⟨2, ![n, 4]⟩ : Shape).Slices ![0, 1] ⟨2, ![n, 1]⟩)
    (s2 : (⟨2, ![n, 4]⟩ : Shape).Slices ![0, 2] ⟨2, ![n, 1]⟩) (s3 : (⟨2, ![n, 4]⟩ : Shape).Slices ![0, 3] ⟨2, ![n, 1]⟩)
    (hc : (⟨2, ![n, 1]⟩ : Shape).ShapeCasts ⟨1, ![n]⟩)
    (hb : (⟨1, ![n]⟩ : Shape).BroadcastsInDim ⟨2, ![n, 1]⟩ (![0] : Fin 1 → Fin 2))
    (hcat : Shape.Concatenates [(⟨2, ![n, 1]⟩ : Shape), ⟨2, ![n, 1]⟩, ⟨2, ![n, 1]⟩, ⟨2, ![n, 1]⟩, ⟨2, ![n, 1]⟩] ⟨2, ![n, 5]⟩ 1) :
    (⟨2, ![n, 5]⟩ : Shape).Idx → F .f32 :=
  concatenate ⟨2, ![n, 5]⟩ 1 [⟨⟨2, ![n, 1]⟩, boxCol x 0 s0 hc hb⟩, ⟨⟨2, ![n, 1]⟩, boxCol x 1 s1 hc hb⟩, ⟨⟨2, ![n, 1]⟩, boxCol x 2 s2 hc hb⟩,
    ⟨⟨2, ![n, 1]⟩, boxCol x 3 s3 hc hb⟩, ⟨⟨2, ![n, 1]⟩, areaCol x s0 s1 s2 s3 hc hb⟩] hcat

/-- A corner column read at (r, ·) is the corner. -/
theorem boxCol_apply {n : ℕ} (x : (⟨2, ![n, 4]⟩ : Shape).Idx → F .f32) (o : ℕ) (hs hc hb) (r : Fin n) (z : Fin 1) (k : Fin 4) (hk : k.val = o) :
    boxCol x o hs hc hb (ix2 r z) = x (ix2 r k) := by
  show broadcastInDim _ _ hb _ (ix2 r z) = _
  rw [vecCol_apply, colVec_apply o x hs hc r k hk]

variable {n : ℕ} (x : (⟨2, ![n, 4]⟩ : Shape).Idx → F .f32) (s0 s1 s2 s3 hc hb hcat) (r : Fin n)

theorem stack5_apply0 : stack5 x s0 s1 s2 s3 hc hb hcat (ix2 r (0 : Fin 5)) = x (ix2 r 0) :=
  (concat5_apply _ _ _ _ _ hcat r 0).trans (boxCol_apply x 0 s0 hc hb r 0 0 rfl)
theorem stack5_apply1 : stack5 x s0 s1 s2 s3 hc hb hcat (ix2 r (1 : Fin 5)) = x (ix2 r 1) :=
  (concat5_apply _ _ _ _ _ hcat r 1).trans (boxCol_apply x 1 s1 hc hb r 0 1 rfl)
theorem stack5_apply2 : stack5 x s0 s1 s2 s3 hc hb hcat (ix2 r (2 : Fin 5)) = x (ix2 r 2) :=
  (concat5_apply _ _ _ _ _ hcat r 2).trans (boxCol_apply x 2 s2 hc hb r 0 2 rfl)
theorem stack5_apply3 : stack5 x s0 s1 s2 s3 hc hb hcat (ix2 r (3 : Fin 5)) = x (ix2 r 3) :=
  (concat5_apply _ _ _ _ _ hcat r 3).trans (boxCol_apply x 3 s3 hc hb r 0 3 rfl)
/-- The fifth column is the area. -/
theorem stack5_apply4 : stack5 x s0 s1 s2 s3 hc hb hcat (ix2 r (4 : Fin 5))
    = FloatOps.mulf (FloatOps.subf (x (ix2 r 2)) (x (ix2 r 0))) (FloatOps.subf (x (ix2 r 3)) (x (ix2 r 1))) := by
  refine (concat5_apply _ _ _ _ _ hcat r 4).trans ?_
  show areaCol x s0 s1 s2 s3 hc hb (ix2 r (0 : Fin 1)) = _
  show broadcastInDim _ _ hb _ (ix2 r (0 : Fin 1)) = _
  rw [vecCol_apply]
  simp only [mulf, subf]
  rw [colVec_apply 2 x s2 hc r 2 rfl, colVec_apply 0 x s0 hc r 0 rfl, colVec_apply 3 x s3 hc r 3 rfl, colVec_apply 1 x s1 hc r 1 rfl]

end Stack5

/-! ## A host line over five operands -/

section Nary5
variable {τ : Topo} {sig : RefSig} {Val : EltTy → Type}
variable {x a b c d y : Ref sig .tc}

/-- The result buffer of a host operation over the literal family of five references holds the operation's function
    of the five operands' contents, each read at its own reference. -/
theorem nary5_result
    (f : ((k : Fin 5) → ((![x, a, b, c, d] : Fin 5 → Ref sig .tc) k).ty.Contents Val) → y.ty.Contents Val) (hxs hy)
    (F : Valuation τ sig Val) :
    (StableHlo.nary (τ := τ) ![x, a, b, c, d] y f hxs hy).result F (no_index (Proc.devRef .tc y))
      = f (Fin.cons (F (Proc.devRef .tc x)) (Fin.cons (F (Proc.devRef .tc a)) (Fin.cons (F (Proc.devRef .tc b))
          (Fin.cons (F (Proc.devRef .tc c)) (Fin.cons (F (Proc.devRef .tc d)) (fun i => i.elim0)))))) := by
  rw [StableHlo.nary_result]; congr 1; funext k; fin_cases k <;> rfl

end Nary5

/-! ## A one-bit word from its zero-extension -/

/-- A one-bit word zero-extended to 32 bits is nonzero exactly when the bit is set. -/
theorem cmpi_ne_setWidth (b : BitVec 1) : IntOp.cmpi .ne (b.setWidth 32) 0#32 = b := by
  have hb : b = 0#1 ∨ b = 1#1 := by
    rcases b with ⟨⟨v, hv⟩⟩
    have : v = 0 ∨ v = 1 := by omega
    rcases this with rfl | rfl
    · exact Or.inl rfl
    · exact Or.inr rfl
  rcases hb with rfl | rfl <;> rfl

end Cert.LibColumns

end
-- ==== Proof.PointValue.lean ====
/-
  What the body stores, read at one element.

  At a grid point the body holds a 400×5 tile (one row per detection: x1, y1, x2, y2, area), the 5×2000 table of all
  detections' features and the 5×512 table of the ground-truth boxes' features, one column per box. Element (p, q) of
  the first stored block is the IoU formula applied to row p of the tile and column q of the ground-truth table;
  of the second, to row p of the tile and column q of the detections' table; of the third, that element compared
  (≥) with the threshold, as a 32-bit word. Every operation of the body is pointwise after its broadcasts, so each
  element is read by pushing the index through the broadcasts and slices.
-/
import proofs.«175029_j12867722019170_2_alg».proof.Proof.Gen.KernelIdeal.Skeleton
import proofs.«175029_j12867722019170_2_alg».proof.Proof.IouSpec
import proofs.«175029_j12867722019170_2_alg».proof.Proof.LibColumns

noncomputable section

namespace Cert.KernelIdeal.Iou

open Idealize.ShloMosaic Idealize.ShloMosaic.ValueIdx
open Cert.KernelIdeal Cert.KernelIdeal.Gen Cert.LibColumns

/-- The block against the ground-truth boxes, at (p, q): the IoU of the tile's row p and the table's column q. -/
theorem dtGt_payload_apply (v0 : Vec Ideal S400x5 .f32) (v7 : Vec Ideal S5x512 .f32) (p : Fin 400) (q : Fin 512) :
    k0_pay9 (F := Ideal) v0 v7 (ix2 p q)
      = Cert.IouSpec.iouOf (v0 (ix2 p 0)) (v0 (ix2 p 1)) (v0 (ix2 p 2)) (v0 (ix2 p 3)) (v0 (ix2 p 4))
          (v7 (ix2 0 q)) (v7 (ix2 1 q)) (v7 (ix2 2 q)) (v7 (ix2 3 q)) (v7 (ix2 4 q)) := by
  unfold k0_pay9 k0_pay4 k0_pay5 k0_pay6 k0_pay7 k0_pay8 k0_pay3 Cert.IouSpec.iouOf
  simp only [divf, mulf, maximumf, subf, minimumf, addf, broadcast]
  rw [colBroadcast_apply 0 v0 _ _ _ p q 0 rfl, colBroadcast_apply 1 v0 _ _ _ p q 1 rfl, colBroadcast_apply 2 v0 _ _ _ p q 2 rfl,
    colBroadcast_apply 3 v0 _ _ _ p q 3 rfl, colBroadcast_apply 4 v0 _ _ _ p q 4 rfl,
    rowBroadcast_apply 0 v7 _ _ _ p q 0 rfl, rowBroadcast_apply 1 v7 _ _ _ p q 1 rfl, rowBroadcast_apply 2 v7 _ _ _ p q 2 rfl,
    rowBroadcast_apply 3 v7 _ _ _ p q 3 rfl, rowBroadcast_apply 4 v7 _ _ _ p q 4 rfl]

/-- The block against all detections, at (p, q): the IoU of the tile's row p and the detections' table's column q. -/
theorem dtDt_payload_apply (v0 : Vec Ideal S400x5 .f32) (v39 : Vec Ideal S5x2000 .f32) (p : Fin 400) (q : Fin 2000) :
    k0_pay1 (F := Ideal) (k0_pay5 v0) (k0_pay6 v0) (k0_pay7 v0) (k0_pay8 v0) (k0_pay11 v39) (k0_pay12 v39) (k0_pay13 v39) (k0_pay14 v39)
        (k0_pay15 v0) (k0_pay16 v39) (ix2 p q)
      = Cert.IouSpec.iouOf (v0 (ix2 p 0)) (v0 (ix2 p 1)) (v0 (ix2 p 2)) (v0 (ix2 p 3)) (v0 (ix2 p 4))
          (v39 (ix2 0 q)) (v39 (ix2 1 q)) (v39 (ix2 2 q)) (v39 (ix2 3 q)) (v39 (ix2 4 q)) := by
  unfold k0_pay1 k0_pay5 k0_pay6 k0_pay7 k0_pay8 k0_pay11 k0_pay12 k0_pay13 k0_pay14 k0_pay15 k0_pay16 k0_pay4 k0_pay3 k0_pay10
    Cert.IouSpec.iouOf
  simp only [divf, mulf, maximumf, subf, minimumf, addf, broadcast]
  rw [colBroadcast_apply 0 v0 _ _ _ p q 0 rfl, colBroadcast_apply 1 v0 _ _ _ p q 1 rfl, colBroadcast_apply 2 v0 _ _ _ p q 2 rfl,
    colBroadcast_apply 3 v0 _ _ _ p q 3 rfl, colBroadcast_apply 4 v0 _ _ _ p q 4 rfl,
    rowBroadcast_apply 0 v39 _ _ _ p q 0 rfl, rowBroadcast_apply 1 v39 _ _ _ p q 1 rfl, rowBroadcast_apply 2 v39 _ _ _ p q 2 rfl,
    rowBroadcast_apply 3 v39 _ _ _ p q 3 rfl, rowBroadcast_apply 4 v39 _ _ _ p q 4 rfl]

/-- The mask block, at (p, q): that IoU compared with the threshold, zero-extended to a 32-bit word. -/
theorem mask_payload_apply (v0 : Vec Ideal S400x5 .f32) (v39 : Vec Ideal S5x2000 .f32) (p : Fin 400) (q : Fin 2000) :
    k0_pay2 (F := Ideal) (k0_pay5 v0) (k0_pay6 v0) (k0_pay7 v0) (k0_pay8 v0) (k0_pay11 v39) (k0_pay12 v39) (k0_pay13 v39) (k0_pay14 v39)
        (k0_pay15 v0) (k0_pay16 v39) (ix2 p q)
      = (FloatOps.cmpf (F := Ideal) .oge (Cert.IouSpec.iouOf (v0 (ix2 p 0)) (v0 (ix2 p 1)) (v0 (ix2 p 2)) (v0 (ix2 p 3)) (v0 (ix2 p 4))
          (v39 (ix2 0 q)) (v39 (ix2 1 q)) (v39 (ix2 2 q)) (v39 (ix2 3 q)) (v39 (ix2 4 q))) Cert.IouSpec.fifth).setWidth 32 := by
  unfold k0_pay2
  simp only [extui, cmpf, broadcast]
  rw [dtDt_payload_apply]

end Cert.KernelIdeal.Iou

end
-- ==== Proof.Blocks.lean ====
/-
  From blocks to arrays.

  The grid has five points; point t works on rows 400t … 400t + 399 of the stacked detections (the tile) and on the
  two whole transposed tables, and writes back rows 400t … 400t + 399 of each of the three results. So element
  (400t + p, q) of a result array is what point t stored at (p, q): the IoU formula of row 400t + p of the stacked
  detections and column q of a table (and, for the third result, its comparison with the threshold). The five row
  bands tile the 2000 rows, so each result array is one function of the stacked detections and the two tables.
-/
import proofs.«175029_j12867722019170_2_alg».proof.Proof.KernelIdealFrame
import proofs.«175029_j12867722019170_2_alg».proof.Proof.PointValue
import Idealize.ShloMosaic.Lib.Pipeline.Value

set_option maxRecDepth 16384

noncomputable section

namespace Cert.KernelIdeal.Iou

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ)

theorem hz : (![0, 0] : Fin 2 → Nat) = fun _ => 0 := funext fun a => by fin_cases a <;> rfl

/-- The stacked detections (2000×5), and the two transposed tables (5×2000, 5×512), as the region finds them. -/
abbrev stackedDt (c : Dev nD) : S2000x5.Idx → Ideal .f32 := atEntry m c main_v16
abbrev tableDt (c : Dev nD) : S5x2000.Idx → Ideal .f32 := atEntry m c main_v34
abbrev tableGt (c : Dev nD) : S5x512.Idx → Ideal .f32 := atEntry m c main_v35

/-- The printed index maps over the grid: the tile and the three results move with the point along the rows; the two
    tables stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-! ## The input blocks -/

/-- Row p of the tile at point t is row 400t + p of the stacked detections. -/
theorem tile_apply (c : Dev nD) (t : Fin cfg0.N) (p : Fin 400) (k : Fin 5) (r : Fin 2000) (hr : r.val = 400 * t.val + p.val) :
    (blockAt m c 0 t : Vec Ideal S400x5 .f32) (ix2 p k) = stackedDt m c (ix2 r k) := by
  obtain ⟨e0, e1, -⟩ := idx_facts t
  unfold blockAt
  rw [View.read_apply]
  show atEntry m c main_v16 _ = atEntry m c main_v16 _
  refine congrArg _ ?_
  funext a
  apply Fin.ext
  match a with
  | ⟨0, _⟩ => show win0_0.index t (0 : Fin 2) * 400 + 1 * p.val = r.val; rw [e0, hr]; omega
  | ⟨1, _⟩ => show win0_0.index t (1 : Fin 2) * 5 + 1 * k.val = k.val; rw [e1]; omega

/-- The detections' table's block is the whole table at every point. -/
theorem dets_apply (c : Dev nD) (t : Fin cfg0.N) (k : Fin 5) (q : Fin 2000) :
    (blockAt m c 1 t : Vec Ideal S5x2000 .f32) (ix2 k q) = tableDt m c (ix2 k q) := by
  obtain ⟨-, -, e2, e3, -⟩ := idx_facts t
  unfold blockAt
  rw [View.read_apply]
  show atEntry m c main_v34 _ = atEntry m c main_v34 _
  refine congrArg _ ?_
  funext a
  apply Fin.ext
  match a with
  | ⟨0, _⟩ => show win0_1.index t (0 : Fin 2) * 5 + 1 * k.val = k.val; rw [e2]; omega
  | ⟨1, _⟩ => show win0_1.index t (1 : Fin 2) * 2000 + 1 * q.val = q.val; rw [e3]; omega

/-- The ground-truth table's block is the whole table at every point. -/
theorem gts_apply (c : Dev nD) (t : Fin cfg0.N) (k : Fin 5) (q : Fin 512) :
    (blockAt m c 2 t : Vec Ideal S5x512 .f32) (ix2 k q) = tableGt m c (ix2 k q) := by
  obtain ⟨-, -, -, -, e4, e5, -⟩ := idx_facts t
  unfold blockAt
  rw [View.read_apply]
  show atEntry m c main_v35 _ = atEntry m c main_v35 _
  refine congrArg _ ?_
  funext a
  apply Fin.ext
  match a with
  | ⟨0, _⟩ => show win0_2.index t (0 : Fin 2) * 5 + 1 * k.val = k.val; rw [e4]; omega
  | ⟨1, _⟩ => show win0_2.index t (1 : Fin 2) * 512 + 1 * q.val = q.val; rw [e5]; omega

/-! ## The three results as functions of the stacked detections and the tables -/

/-- The IoU of row r of the stacked detections against column q of a table of n boxes. -/
def iouAt {n : Nat} (dt : S2000x5.Idx → Ideal .f32) (tb : (⟨2, ![5, n]⟩ : Shape).Idx → Ideal .f32) (r : Fin 2000) (q : Fin n) : Ideal .f32 :=
  Cert.IouSpec.iouOf (dt (ix2 r 0)) (dt (ix2 r 1)) (dt (ix2 r 2)) (dt (ix2 r 3)) (dt (ix2 r 4))
    (tb (ix2 0 q)) (tb (ix2 1 q)) (tb (ix2 2 q)) (tb (ix2 3 q)) (tb (ix2 4 q))

def dtGtArr (c : Dev nD) : S2000x512.Idx → Ideal .f32 := fun i => iouAt (stackedDt m c) (tableGt m c) (i 0) (i 1)
def dtDtArr (c : Dev nD) : S2000x2000.Idx → Ideal .f32 := fun i => iouAt (stackedDt m c) (tableDt m c) (i 0) (i 1)
def maskArr (c : Dev nD) : S2000x2000.Idx → BitVec 32 :=
  fun i => (FloatOps.cmpf (F := Ideal) .oge (iouAt (stackedDt m c) (tableDt m c) (i 0) (i 1)) Cert.IouSpec.fifth).setWidth 32

/-! ## What each point writes back -/

/-- Point t writes back block t of the detections-against-ground-truth array. -/
theorem flushed3_eq (c : Dev nD) (t : Fin cfg0.N) :
    (dats m 0 c).flushed 3 t = ((cfg0.win 3).blk t).view.read (Elt Ideal) (dtGtArr m c) := by
  show (cfg0.win 3).cut (grid0.coords t) ((dats m 0 c).after 3 t) = _
  rw [after_3]
  unfold dtGtBlock
  rw [View.canon_unit_zero hz]
  simp only [View.ld_unit_zero (S := S400x5) hz, View.ld_unit_zero (S := S5x512) hz]
  obtain ⟨-, -, -, -, -, -, e6, e7, -⟩ := idx_facts t
  funext j
  rw [View.read_apply]
  show k0_pay9 (F := Ideal) (blockAt m c 0 t) (blockAt m c 2 t) j = dtGtArr m c (((cfg0.win 3).blk t).view.emb j)
  obtain ⟨p, q, rfl⟩ : ∃ (p : Fin 400) (q : Fin 512), (j : S400x512.Idx) = ix2 p q := ⟨j 0, j 1, eq_ix2 j⟩
  refine (dtGt_payload_apply _ _ p q).trans ?_
  have h0 : ((((cfg0.win 3).blk t).view.emb (ix2 p q)) (0 : Fin 2)).val = 400 * t.val + p.val := by
    show win0_3.index t (0 : Fin 2) * 400 + 1 * p.val = _; rw [e6]; omega
  have h1 : (((cfg0.win 3).blk t).view.emb (ix2 p q)) (1 : Fin 2) = q := Fin.ext (by
    show win0_3.index t (1 : Fin 2) * 512 + 1 * q.val = q.val; rw [e7]; omega)
  unfold dtGtArr iouAt
  dsimp only
  rw [h1, tile_apply m c t p 0 _ h0, tile_apply m c t p 1 _ h0, tile_apply m c t p 2 _ h0, tile_apply m c t p 3 _ h0,
    tile_apply m c t p 4 _ h0, gts_apply, gts_apply, gts_apply, gts_apply, gts_apply]

/-- Point t writes back block t of the detections-against-detections array. -/
theorem flushed4_eq (c : Dev nD) (t : Fin cfg0.N) :
    (dats m 0 c).flushed 4 t = ((cfg0.win 4).blk t).view.read (Elt Ideal) (dtDtArr m c) := by
  show (cfg0.win 4).cut (grid0.coords t) ((dats m 0 c).after 4 t) = _
  rw [after_4]
  unfold dtDtBlock
  rw [View.canon_unit_zero hz]
  simp only [View.ld_unit_zero (S := S400x5) hz, View.ld_unit_zero (S := S5x2000) hz]
  obtain ⟨-, -, -, -, -, -, -, -, e8, e9, -⟩ := idx_facts t
  funext j
  rw [View.read_apply]
  show k0_pay1 (F := Ideal) (k0_pay5 (blockAt m c 0 t)) (k0_pay6 (blockAt m c 0 t)) (k0_pay7 (blockAt m c 0 t)) (k0_pay8 (blockAt m c 0 t)) (k0_pay11 (blockAt m c 1 t)) (k0_pay12 (blockAt m c 1 t)) (k0_pay13 (blockAt m c 1 t)) (k0_pay14 (blockAt m c 1 t)) (k0_pay15 (blockAt m c 0 t)) (k0_pay16 (blockAt m c 1 t)) j = dtDtArr m c (((cfg0.win 4).blk t).view.emb j)
  obtain ⟨p, q, rfl⟩ : ∃ (p : Fin 400) (q : Fin 2000), (j : S400x2000.Idx) = ix2 p q := ⟨j 0, j 1, eq_ix2 j⟩
  refine (dtDt_payload_apply _ _ p q).trans ?_
  have h0 : ((((cfg0.win 4).blk t).view.emb (ix2 p q)) (0 : Fin 2)).val = 400 * t.val + p.val := by
    show win0_4.index t (0 : Fin 2) * 400 + 1 * p.val = _; rw [e8]; omega
  have h1 : (((cfg0.win 4).blk t).view.emb (ix2 p q)) (1 : Fin 2) = q := Fin.ext (by
    show win0_4.index t (1 : Fin 2) * 2000 + 1 * q.val = q.val; rw [e9]; omega)
  unfold dtDtArr iouAt
  dsimp only
  rw [h1, tile_apply m c t p 0 _ h0, tile_apply m c t p 1 _ h0, tile_apply m c t p 2 _ h0, tile_apply m c t p 3 _ h0,
    tile_apply m c t p 4 _ h0, dets_apply, dets_apply, dets_apply, dets_apply, dets_apply]

/-- Point t writes back block t of the mask array (as 32-bit words). -/
theorem flushed5_eq (c : Dev nD) (t : Fin cfg0.N) :
    (dats m 0 c).flushed 5 t = ((cfg0.win 5).blk t).view.read (Elt Ideal) (maskArr m c) := by
  show (cfg0.win 5).cut (grid0.coords t) ((dats m 0 c).after 5 t) = _
  rw [after_5]
  unfold maskBlock
  rw [View.canon_unit_zero hz]
  simp only [View.ld_unit_zero (S := S400x5) hz, View.ld_unit_zero (S := S5x2000) hz]
  obtain ⟨-, -, -, -, -, -, -, -, -, -, e10, e11⟩ := idx_facts t
  funext j
  rw [View.read_apply]
  show k0_pay2 (F := Ideal) (k0_pay5 (blockAt m c 0 t)) (k0_pay6 (blockAt m c 0 t)) (k0_pay7 (blockAt m c 0 t)) (k0_pay8 (blockAt m c 0 t)) (k0_pay11 (blockAt m c 1 t)) (k0_pay12 (blockAt m c 1 t)) (k0_pay13 (blockAt m c 1 t)) (k0_pay14 (blockAt m c 1 t)) (k0_pay15 (blockAt m c 0 t)) (k0_pay16 (blockAt m c 1 t)) j = maskArr m c (((cfg0.win 5).blk t).view.emb j)
  obtain ⟨p, q, rfl⟩ : ∃ (p : Fin 400) (q : Fin 2000), (j : S400x2000.Idx) = ix2 p q := ⟨j 0, j 1, eq_ix2 j⟩
  refine (mask_payload_apply _ _ p q).trans ?_
  have h0 : ((((cfg0.win 5).blk t).view.emb (ix2 p q)) (0 : Fin 2)).val = 400 * t.val + p.val := by
    show win0_5.index t (0 : Fin 2) * 400 + 1 * p.val = _; rw [e10]; omega
  have h1 : (((cfg0.win 5).blk t).view.emb (ix2 p q)) (1 : Fin 2) = q := Fin.ext (by
    show win0_5.index t (1 : Fin 2) * 2000 + 1 * q.val = q.val; rw [e11]; omega)
  unfold maskArr iouAt
  dsimp only
  rw [h1, tile_apply m c t p 0 _ h0, tile_apply m c t p 1 _ h0, tile_apply m c t p 2 _ h0, tile_apply m c t p 3 _ h0,
    tile_apply m c t p 4 _ h0, dets_apply, dets_apply, dets_apply, dets_apply, dets_apply]

/-! ## The five row bands cover each result -/

theorem mem_blk3 (t : Fin cfg0.N) (i : S2000x512.Idx) :
    i ∈ ((cfg0.win 3).blk t).view.set ↔ ∀ a : Fin 2, win0_3.index t a * S400x512.size a ≤ (i a).val ∧ (i a).val < win0_3.index t a * S400x512.size a + S400x512.size a := by
  show i ∈ ((View.whole main_v36_0).slice (win0_3.rect t)).set ↔ _
  rw [View.set_slice_whole, Rect.mem_set_unit]
  exact Iff.rfl
theorem mem_blk4 (t : Fin cfg0.N) (i : S2000x2000.Idx) :
    i ∈ ((cfg0.win 4).blk t).view.set ↔ ∀ a : Fin 2, win0_4.index t a * S400x2000.size a ≤ (i a).val ∧ (i a).val < win0_4.index t a * S400x2000.size a + S400x2000.size a := by
  show i ∈ ((View.whole main_v36_1).slice (win0_4.rect t)).set ↔ _
  rw [View.set_slice_whole, Rect.mem_set_unit]
  exact Iff.rfl
theorem mem_blk5 (t : Fin cfg0.N) (i : S2000x2000.Idx) :
    i ∈ ((cfg0.win 5).blk t).view.set ↔ ∀ a : Fin 2, win0_5.index t a * S400x2000.size a ≤ (i a).val ∧ (i a).val < win0_5.index t a * S400x2000.size a + S400x2000.size a := by
  show i ∈ ((View.whole main_v36_2).slice (win0_5.rect t)).set ↔ _
  rw [View.set_slice_whole, Rect.mem_set_unit]
  exact Iff.rfl

/-- Row r lies in the band of point r / 400. -/
theorem cover3 (i : S2000x512.Idx) : ∃ t : Fin cfg0.N, (cfg0.win 3).flush t = true ∧ i ∈ ((cfg0.win 3).blk t).view.set := by
  have hi0 : (i 0).val < 2000 := (i 0).isLt
  have hi1 : (i 1).val < 512 := (i 1).isLt
  obtain ⟨t, ht⟩ : ∃ t : Fin cfg0.N, t.val = (i 0).val / 400 := ⟨⟨(i 0).val / 400, by rw [show cfg0.N = 5 from N_0]; omega⟩, rfl⟩
  obtain ⟨-, -, -, -, -, -, e6, e7, -⟩ := idx_facts t
  refine ⟨t, flush0_3 t, ?_⟩
  rw [mem_blk3]
  intro a
  match a with
  | ⟨0, _⟩ => show win0_3.index t (0 : Fin 2) * 400 ≤ (i 0).val ∧ (i 0).val < win0_3.index t (0 : Fin 2) * 400 + 400; rw [e6]; omega
  | ⟨1, _⟩ => show win0_3.index t (1 : Fin 2) * 512 ≤ (i 1).val ∧ (i 1).val < win0_3.index t (1 : Fin 2) * 512 + 512; rw [e7]; omega
theorem cover4 (i : S2000x2000.Idx) : ∃ t : Fin cfg0.N, (cfg0.win 4).flush t = true ∧ i ∈ ((cfg0.win 4).blk t).view.set := by
  have hi0 : (i 0).val < 2000 := (i 0).isLt
  have hi1 : (i 1).val < 2000 := (i 1).isLt
  obtain ⟨t, ht⟩ : ∃ t : Fin cfg0.N, t.val = (i 0).val / 400 := ⟨⟨(i 0).val / 400, by rw [show cfg0.N = 5 from N_0]; omega⟩, rfl⟩
  obtain ⟨-, -, -, -, -, -, -, -, e8, e9, -⟩ := idx_facts t
  refine ⟨t, flush0_4 t, ?_⟩
  rw [mem_blk4]
  intro a
  match a with
  | ⟨0, _⟩ => show win0_4.index t (0 : Fin 2) * 400 ≤ (i 0).val ∧ (i 0).val < win0_4.index t (0 : Fin 2) * 400 + 400; rw [e8]; omega
  | ⟨1, _⟩ => show win0_4.index t (1 : Fin 2) * 2000 ≤ (i 1).val ∧ (i 1).val < win0_4.index t (1 : Fin 2) * 2000 + 2000; rw [e9]; omega
theorem cover5 (i : S2000x2000.Idx) : ∃ t : Fin cfg0.N, (cfg0.win 5).flush t = true ∧ i ∈ ((cfg0.win 5).blk t).view.set := by
  have hi0 : (i 0).val < 2000 := (i 0).isLt
  have hi1 : (i 1).val < 2000 := (i 1).isLt
  obtain ⟨t, ht⟩ : ∃ t : Fin cfg0.N, t.val = (i 0).val / 400 := ⟨⟨(i 0).val / 400, by rw [show cfg0.N = 5 from N_0]; omega⟩, rfl⟩
  obtain ⟨-, -, -, -, -, -, -, -, -, -, e10, e11⟩ := idx_facts t
  refine ⟨t, flush0_5 t, ?_⟩
  rw [mem_blk5]
  intro a
  match a with
  | ⟨0, _⟩ => show win0_5.index t (0 : Fin 2) * 400 ≤ (i 0).val ∧ (i 0).val < win0_5.index t (0 : Fin 2) * 400 + 400; rw [e10]; omega
  | ⟨1, _⟩ => show win0_5.index t (1 : Fin 2) * 2000 ≤ (i 1).val ∧ (i 1).val < win0_5.index t (1 : Fin 2) * 2000 + 2000; rw [e11]; omega

/-! ## The arrays after the run -/

theorem final3 (c : Dev nD) : (dats m 0 c).arrAt 3 cfg0.N = dtGtArr m c :=
  (dats m 0 c).arrAt_eq_of_cover 3 (dtGtArr m c) (fun t _ => flushed3_eq m c t) cover3
theorem final4 (c : Dev nD) : (dats m 0 c).arrAt 4 cfg0.N = dtDtArr m c :=
  (dats m 0 c).arrAt_eq_of_cover 4 (dtDtArr m c) (fun t _ => flushed4_eq m c t) cover4
theorem final5 (c : Dev nD) : (dats m 0 c).arrAt 5 cfg0.N = maskArr m c :=
  (dats m 0 c).arrAt_eq_of_cover 5 (maskArr m c) (fun t _ => flushed5_eq m c t) cover5

end Cert.KernelIdeal.Iou

end
-- ==== Proof.EntryArrays.lean ====
/-
  The three arrays the region reads, as functions of the two box lists.

  Before the region, 36 host lines slice each box list into its four corner columns, compute the area column
  (x2 − x1)·(y2 − y1), stack the five columns side by side into an n×5 feature table, and transpose it. The region's
  three input arrays are the detections' feature table (2000×5), its transpose (5×2000) and the transpose of the
  ground-truth boxes' feature table (5×512). Each is read here as that closed term of the launch contents of the two
  argument arrays; the lines are followed one by one, every other buffer keeping what it held.
-/
import proofs.«175029_j12867722019170_2_alg».proof.Proof.KernelIdealFrame
import proofs.«175029_j12867722019170_2_alg».proof.Proof.LibColumns

set_option maxRecDepth 16384

noncomputable section

namespace Cert.KernelIdeal.Iou

open Idealize.ShloMosaic Idealize.ShloMosaic.TcCoe Idealize.ShloMosaic.ValueIdx Idealize.SL.Sem
open Cert.KernelIdeal Cert.KernelIdeal.Gen Cert.LibColumns Idealize.ShloMosaic.StableHlo

variable {F : FTy → Type} [FloatOps F]
variable (m : (ℓ : Loc nD τ sig) → Buf (Elt F) ℓ)

/-- The line that stacks the detections' five columns leaves, in its result buffer, the concatenation of what the five
    operand buffers hold. -/
theorem stackDt_result (W : Valuation τ sig (Elt F)) :
    (StableHlo.nary ![main_v11, main_v12, main_v13, main_v14, main_v15] main_v16 (fun u => concatenate S2000x5 1 [⟨S2000x1, u 0⟩, ⟨S2000x1, u 1⟩, ⟨S2000x1, u 2⟩, ⟨S2000x1, u 3⟩, ⟨S2000x1, u 4⟩] concatenates_S2000x1_S2000x1_S2000x1_S2000x1_S2000x1_S2000x5_d1)).result W (no_index (Proc.devRef .tc main_v16))
      = concatenate S2000x5 1 [⟨S2000x1, (W (Proc.devRef .tc main_v11) : S2000x1.Idx → Elt F .f32)⟩, ⟨S2000x1, (W (Proc.devRef .tc main_v12) : S2000x1.Idx → Elt F .f32)⟩,
          ⟨S2000x1, (W (Proc.devRef .tc main_v13) : S2000x1.Idx → Elt F .f32)⟩, ⟨S2000x1, (W (Proc.devRef .tc main_v14) : S2000x1.Idx → Elt F .f32)⟩,
          ⟨S2000x1, (W (Proc.devRef .tc main_v15) : S2000x1.Idx → Elt F .f32)⟩] concatenates_S2000x1_S2000x1_S2000x1_S2000x1_S2000x1_S2000x5_d1 := by
  rw [StableHlo.nary_result]; rfl

/-- The same for the ground-truth boxes' five columns. -/
theorem stackGt_result (W : Valuation τ sig (Elt F)) :
    (StableHlo.nary ![main_v28, main_v29, main_v30, main_v31, main_v32] main_v33 (fun u => concatenate S512x5 1 [⟨S512x1, u 0⟩, ⟨S512x1, u 1⟩, ⟨S512x1, u 2⟩, ⟨S512x1, u 3⟩, ⟨S512x1, u 4⟩] concatenates_S512x1_S512x1_S512x1_S512x1_S512x1_S512x5_d1)).result W (no_index (Proc.devRef .tc main_v33))
      = concatenate S512x5 1 [⟨S512x1, (W (Proc.devRef .tc main_v28) : S512x1.Idx → Elt F .f32)⟩, ⟨S512x1, (W (Proc.devRef .tc main_v29) : S512x1.Idx → Elt F .f32)⟩,
          ⟨S512x1, (W (Proc.devRef .tc main_v30) : S512x1.Idx → Elt F .f32)⟩, ⟨S512x1, (W (Proc.devRef .tc main_v31) : S512x1.Idx → Elt F .f32)⟩,
          ⟨S512x1, (W (Proc.devRef .tc main_v32) : S512x1.Idx → Elt F .f32)⟩] concatenates_S512x1_S512x1_S512x1_S512x1_S512x1_S512x5_d1 := by
  rw [StableHlo.nary_result]; rfl

set_option maxHeartbeats 4000000 in
/-- The tile window's array is the detections' feature table. -/
theorem entry_stackedDt (c : Dev nD) :
    atEntry m c main_v16 = stack5 (n := 2000) (m ((c : Thread nD τ).loc main_arg0)) slices_S2000x4_S2000x1_0_0 slices_S2000x4_S2000x1_0_1 slices_S2000x4_S2000x1_0_2 slices_S2000x4_S2000x1_0_3 shapeCasts_S2000x1_S2000 bcast_S2000_S2000x1_0 concatenates_S2000x1_S2000x1_S2000x1_S2000x1_S2000x1_S2000x5_d1 := by
  show StableHlo.after hostOps0 (fun b => m (c, b)) (Proc.devRef .tc main_v16) = _
  simp (disch := decide) only [hostOps0, after_cons, after_nil,
      nullary_result', unary_result', binary_result', reshape_result', stackDt_result, stackGt_result,
      nullary_result_ne', unary_result_ne', binary_result_ne', reshape_result_ne', nary_result_ne']
  repeat (first
    | rw [unary_result] | rw [binary_result] | rw [reshape_result]
    | (rw [unary_result_ne]; rotate_left; decide)
    | (rw [binary_result_ne]; rotate_left; decide)
    | (rw [reshape_result_ne]; rotate_left; decide))
  rfl

set_option maxHeartbeats 4000000 in
/-- The detections' table is the transpose of their feature table. -/
theorem entry_tableDt (c : Dev nD) :
    atEntry m c main_v34 = transpose S5x2000 [1, 0] (stack5 (n := 2000) (m ((c : Thread nD τ).loc main_arg0)) slices_S2000x4_S2000x1_0_0 slices_S2000x4_S2000x1_0_1 slices_S2000x4_S2000x1_0_2 slices_S2000x4_S2000x1_0_3 shapeCasts_S2000x1_S2000 bcast_S2000_S2000x1_0 concatenates_S2000x1_S2000x1_S2000x1_S2000x1_S2000x1_S2000x5_d1) transposes_S2000x5_S5x2000_1_0 := by
  show StableHlo.after hostOps0 (fun b => m (c, b)) (Proc.devRef .tc main_v34) = _
  simp (disch := decide) only [hostOps0, after_cons, after_nil,
      nullary_result', unary_result', binary_result', reshape_result', stackDt_result, stackGt_result,
      nullary_result_ne', unary_result_ne', binary_result_ne', reshape_result_ne', nary_result_ne']
  repeat (first
    | rw [unary_result] | rw [binary_result] | rw [reshape_result]
    | (rw [unary_result_ne]; rotate_left; decide)
    | (rw [binary_result_ne]; rotate_left; decide)
    | (rw [reshape_result_ne]; rotate_left; decide))
  rfl

set_option maxHeartbeats 4000000 in
/-- The ground-truth table is the transpose of the ground-truth boxes' feature table. -/
theorem entry_tableGt (c : Dev nD) :
    atEntry m c main_v35 = transpose S5x512 [1, 0] (stack5 (n := 512) (m ((c : Thread nD τ).loc main_arg1)) slices_S512x4_S512x1_0_0 slices_S512x4_S512x1_0_1 slices_S512x4_S512x1_0_2 slices_S512x4_S512x1_0_3 shapeCasts_S512x1_S512 bcast_S512_S512x1_0 concatenates_S512x1_S512x1_S512x1_S512x1_S512x1_S512x5_d1) transposes_S512x5_S5x512_1_0 := by
  show StableHlo.after hostOps0 (fun b => m (c, b)) (Proc.devRef .tc main_v35) = _
  simp (disch := decide) only [hostOps0, after_cons, after_nil,
      nullary_result', unary_result', binary_result', reshape_result', stackDt_result, stackGt_result,
      nullary_result_ne', unary_result_ne', binary_result_ne', reshape_result_ne', nary_result_ne']
  repeat (first
    | rw [unary_result] | rw [binary_result] | rw [reshape_result]
    | (rw [unary_result_ne]; rotate_left; decide)
    | (rw [binary_result_ne]; rotate_left; decide)
    | (rw [reshape_result_ne]; rotate_left; decide))
  rfl

end Cert.KernelIdeal.Iou

end
-- ==== Proof.MaskTail.lean ====
/-
  The third result: the 32-bit array the region wrote, compared with zero.

  The region leaves a 2000×2000 array of 32-bit words. The four host lines after it form the constant 0 as a
  32-bit word, lay it over a 2000×2000 table, compare the region's array with that table entry by entry (≠),
  and copy the comparison into the result. So entry i of the third result is the bit (a i ≠ 0), where a is the
  region's array as its write-backs leave it. This holds at any float instance: no float is touched.
-/
import proofs.«175029_j12867722019170_2_alg».proof.Proof.KernelIdealFrame
import proofs.«175029_j12867722019170_2_alg».proof.Proof.LibColumns
import Idealize.ShloMosaic.Lib.StableHlo.Run
import Idealize.ShloMosaic.Lib.Pipeline.FrameSuffix

set_option maxRecDepth 16384

noncomputable section

namespace Cert.KernelIdeal.Iou

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (c : Dev nD)

/-- The 2000×2000 table of zero words. -/
abbrev zeroWords : (⟨S2000x2000, .i32⟩ : BufTy).Contents (Elt F) :=
  broadcastInDim S2000x2000 ![] bcast_S_S2000x2000 (constantI S_ 32 0#32)

/-- Every entry of the table of zero words is the zero word. -/
theorem zeroWords_apply (i : S2000x2000.Idx) : zeroWords (F := F) i = 0#32 :=
  broadcastInDim_apply _ bcast_S_S2000x2000 (constantI S_ 32 0#32) i (fun a => a.elim0) (fun a => a.elim0)

/-- After the region the mask's buffer holds the array the write-backs leave. -/
theorem mask_array :
    Pipeline.withArrays (cfgs 0).spec c (entryVal m c) (fun w => (dats m 0 c).arrAt w (cfgs 0).N)
        (Proc.devRef .tc main_v36_2)
      = (dats m 0 c).arrAt 5 cfg0.N :=
  Pipeline.withArrays_arr spec0 launch0.win.arr_inj c _ _ 5

/-- The third result is the region's 32-bit array compared (≠) with the table of zero words. -/
theorem mask_tail :
    Pipeline.afterTail₀ cfgs (dats m) 0 (entryVal m) [hostOps1] c main_v39
      = cmpi .ne ((dats m 0 c).arrAt 5 cfg0.N : (⟨S2000x2000, .i32⟩ : BufTy).Contents (Elt F))
          (broadcastInDim S2000x2000 ![] bcast_S_S2000x2000 (constantI S_ 32 0#32)) := by
  unfold Pipeline.afterTail₀
  show StableHlo.after hostOps1 _ (Proc.devRef .tc main_v39) = _
  after_results
  rw [mask_array]
  rfl

/-- Entry by entry: the bit (a i ≠ 0) of the region's array a. -/
theorem mask_tail_apply (i : S2000x2000.Idx) :
    (Pipeline.afterTail₀ cfgs (dats m) 0 (entryVal m) [hostOps1] c main_v39 : (⟨S2000x2000, .i1⟩ : BufTy).Contents (Elt F)) i
      = IntOp.cmpi .ne (((dats m 0 c).arrAt 5 cfg0.N : (⟨S2000x2000, .i32⟩ : BufTy).Contents (Elt F)) i) 0#32 := by
  rw [mask_tail]
  show IntOp.cmpi .ne _ (zeroWords (F := F) i) = _
  rw [zeroWords_apply]

/-- The same as one function of the index. -/
theorem mask_tail_fun :
    Pipeline.afterTail₀ cfgs (dats m) 0 (entryVal m) [hostOps1] c main_v39
      = fun i : S2000x2000.Idx =>
          IntOp.cmpi .ne (((dats m 0 c).arrAt 5 cfg0.N : (⟨S2000x2000, .i32⟩ : BufTy).Contents (Elt F)) i) 0#32 :=
  funext fun i => mask_tail_apply m c i

end Cert.KernelIdeal.Iou

end
-- ==== Proof.KernelValue.lean ====
/-
  The kernel's three results, as functions of the two box lists.

  Row r of the detections' feature table is (x1, y1, x2, y2, area) of detection r, and column q of a transposed
  table is the same five features of box q; so element (r, q) of the first result is the IoU of detection r and
  ground-truth box q, of the second the IoU of detections r and q, and the third result — the region's 32-bit mask
  compared with zero by the last host lines — is the one-bit comparison of that IoU with the threshold, since a
  zero-extended bit is nonzero exactly when it is set.
-/
import proofs.«175029_j12867722019170_2_alg».proof.Proof.Blocks
import proofs.«175029_j12867722019170_2_alg».proof.Proof.EntryArrays
import proofs.«175029_j12867722019170_2_alg».proof.Proof.MaskTail

set_option maxRecDepth 16384

noncomputable section

namespace Cert.KernelIdeal.Iou

open Idealize.ShloMosaic Idealize.ShloMosaic.TcCoe Idealize.ShloMosaic.ValueIdx Idealize.SL.Sem
open Cert.KernelIdeal Cert.KernelIdeal.Gen Cert.LibColumns

variable (m : (ℓ : Loc nD τ sig) → Buf (Elt Ideal) ℓ) (ρ : Dev nD → PrngReg)

theorem stackedDt_eq (c : Dev nD) : stackedDt m c = stack5 (n := 2000) (m ((c : Thread nD τ).loc main_arg0)) slices_S2000x4_S2000x1_0_0 slices_S2000x4_S2000x1_0_1 slices_S2000x4_S2000x1_0_2 slices_S2000x4_S2000x1_0_3 shapeCasts_S2000x1_S2000 bcast_S2000_S2000x1_0 concatenates_S2000x1_S2000x1_S2000x1_S2000x1_S2000x1_S2000x5_d1 :=
  entry_stackedDt m c
theorem tableDt_eq (c : Dev nD) : tableDt m c = transpose S5x2000 [1, 0] (stack5 (n := 2000) (m ((c : Thread nD τ).loc main_arg0)) slices_S2000x4_S2000x1_0_0 slices_S2000x4_S2000x1_0_1 slices_S2000x4_S2000x1_0_2 slices_S2000x4_S2000x1_0_3 shapeCasts_S2000x1_S2000 bcast_S2000_S2000x1_0 concatenates_S2000x1_S2000x1_S2000x1_S2000x1_S2000x1_S2000x5_d1) transposes_S2000x5_S5x2000_1_0 :=
  entry_tableDt m c
theorem tableGt_eq (c : Dev nD) : tableGt m c = transpose S5x512 [1, 0] (stack5 (n := 512) (m ((c : Thread nD τ).loc main_arg1)) slices_S512x4_S512x1_0_0 slices_S512x4_S512x1_0_1 slices_S512x4_S512x1_0_2 slices_S512x4_S512x1_0_3 shapeCasts_S512x1_S512 bcast_S512_S512x1_0 concatenates_S512x1_S512x1_S512x1_S512x1_S512x1_S512x5_d1) transposes_S512x5_S5x512_1_0 :=
  entry_tableGt m c

/-! ## The tables' entries: row r of the feature table, column q of a transposed table, are the box's five features -/

theorem stackedDt_apply0 (c : Dev nD) (r : Fin 2000) : stackedDt m c (ix2 r 0) = m ((c : Thread nD τ).loc main_arg0) (ix2 r 0) := by
  rw [stackedDt_eq]; exact stack5_apply0 _ _ _ _ _ _ _ _ r
theorem tableDt_apply0 (c : Dev nD) (q : Fin 2000) : tableDt m c (ix2 0 q) = m ((c : Thread nD τ).loc main_arg0) (ix2 q 0) := by
  rw [tableDt_eq]; exact (transpose_ix2_apply _ _ 0 q).trans (stack5_apply0 _ _ _ _ _ _ _ _ q)
theorem tableGt_apply0 (c : Dev nD) (q : Fin 512) : tableGt m c (ix2 0 q) = m ((c : Thread nD τ).loc main_arg1) (ix2 q 0) := by
  rw [tableGt_eq]; exact (transpose_ix2_apply _ _ 0 q).trans (stack5_apply0 _ _ _ _ _ _ _ _ q)

theorem stackedDt_apply1 (c : Dev nD) (r : Fin 2000) : stackedDt m c (ix2 r 1) = m ((c : Thread nD τ).loc main_arg0) (ix2 r 1) := by
  rw [stackedDt_eq]; exact stack5_apply1 _ _ _ _ _ _ _ _ r
theorem tableDt_apply1 (c : Dev nD) (q : Fin 2000) : tableDt m c (ix2 1 q) = m ((c : Thread nD τ).loc main_arg0) (ix2 q 1) := by
  rw [tableDt_eq]; exact (transpose_ix2_apply _ _ 1 q).trans (stack5_apply1 _ _ _ _ _ _ _ _ q)
theorem tableGt_apply1 (c : Dev nD) (q : Fin 512) : tableGt m c (ix2 1 q) = m ((c : Thread nD τ).loc main_arg1) (ix2 q 1) := by
  rw [tableGt_eq]; exact (transpose_ix2_apply _ _ 1 q).trans (stack5_apply1 _ _ _ _ _ _ _ _ q)

theorem stackedDt_apply2 (c : Dev nD) (r : Fin 2000) : stackedDt m c (ix2 r 2) = m ((c : Thread nD τ).loc main_arg0) (ix2 r 2) := by
  rw [stackedDt_eq]; exact stack5_apply2 _ _ _ _ _ _ _ _ r
theorem tableDt_apply2 (c : Dev nD) (q : Fin 2000) : tableDt m c (ix2 2 q) = m ((c : Thread nD τ).loc main_arg0) (ix2 q 2) := by
  rw [tableDt_eq]; exact (transpose_ix2_apply _ _ 2 q).trans (stack5_apply2 _ _ _ _ _ _ _ _ q)
theorem tableGt_apply2 (c : Dev nD) (q : Fin 512) : tableGt m c (ix2 2 q) = m ((c : Thread nD τ).loc main_arg1) (ix2 q 2) := by
  rw [tableGt_eq]; exact (transpose_ix2_apply _ _ 2 q).trans (stack5_apply2 _ _ _ _ _ _ _ _ q)

theorem stackedDt_apply3 (c : Dev nD) (r : Fin 2000) : stackedDt m c (ix2 r 3) = m ((c : Thread nD τ).loc main_arg0) (ix2 r 3) := by
  rw [stackedDt_eq]; exact stack5_apply3 _ _ _ _ _ _ _ _ r
theorem tableDt_apply3 (c : Dev nD) (q : Fin 2000) : tableDt m c (ix2 3 q) = m ((c : Thread nD τ).loc main_arg0) (ix2 q 3) := by
  rw [tableDt_eq]; exact (transpose_ix2_apply _ _ 3 q).trans (stack5_apply3 _ _ _ _ _ _ _ _ q)
theorem tableGt_apply3 (c : Dev nD) (q : Fin 512) : tableGt m c (ix2 3 q) = m ((c : Thread nD τ).loc main_arg1) (ix2 q 3) := by
  rw [tableGt_eq]; exact (transpose_ix2_apply _ _ 3 q).trans (stack5_apply3 _ _ _ _ _ _ _ _ q)

theorem stackedDt_apply4 (c : Dev nD) (r : Fin 2000) : stackedDt m c (ix2 r 4) = Cert.IouSpec.area (m ((c : Thread nD τ).loc main_arg0)) r := by
  rw [stackedDt_eq]; exact stack5_apply4 _ _ _ _ _ _ _ _ r
theorem tableDt_apply4 (c : Dev nD) (q : Fin 2000) : tableDt m c (ix2 4 q) = Cert.IouSpec.area (m ((c : Thread nD τ).loc main_arg0)) q := by
  rw [tableDt_eq]; exact (transpose_ix2_apply _ _ 4 q).trans (stack5_apply4 _ _ _ _ _ _ _ _ q)
theorem tableGt_apply4 (c : Dev nD) (q : Fin 512) : tableGt m c (ix2 4 q) = Cert.IouSpec.area (m ((c : Thread nD τ).loc main_arg1)) q := by
  rw [tableGt_eq]; exact (transpose_ix2_apply _ _ 4 q).trans (stack5_apply4 _ _ _ _ _ _ _ _ q)

/-- Detection r against ground-truth box q, from the two tables: the specification's IoU. -/
theorem iouAt_gt (c : Dev nD) (r : Fin 2000) (q : Fin 512) :
    iouAt (stackedDt m c) (tableGt m c) r q
      = Cert.IouSpec.iou (m ((c : Thread nD τ).loc main_arg0)) (m ((c : Thread nD τ).loc main_arg1)) r q := by
  unfold iouAt Cert.IouSpec.iou
  rw [stackedDt_apply0, stackedDt_apply1, stackedDt_apply2, stackedDt_apply3, stackedDt_apply4,
    tableGt_apply0, tableGt_apply1, tableGt_apply2, tableGt_apply3, tableGt_apply4]

/-- Detection r against detection q. -/
theorem iouAt_dt (c : Dev nD) (r : Fin 2000) (q : Fin 2000) :
    iouAt (stackedDt m c) (tableDt m c) r q
      = Cert.IouSpec.iou (m ((c : Thread nD τ).loc main_arg0)) (m ((c : Thread nD τ).loc main_arg0)) r q := by
  unfold iouAt Cert.IouSpec.iou
  rw [stackedDt_apply0, stackedDt_apply1, stackedDt_apply2, stackedDt_apply3, stackedDt_apply4,
    tableDt_apply0, tableDt_apply1, tableDt_apply2, tableDt_apply3, tableDt_apply4]

theorem dtGtArr_eq (c : Dev nD) :
    dtGtArr m c = Cert.IouSpec.dtGt (m ((c : Thread nD τ).loc main_arg0)) (m ((c : Thread nD τ).loc main_arg1)) := by
  funext i
  exact iouAt_gt m c (i 0) (i 1)

theorem dtDtArr_eq (c : Dev nD) : dtDtArr m c = Cert.IouSpec.dtDt (m ((c : Thread nD τ).loc main_arg0)) := by
  funext i
  exact iouAt_dt m c (i 0) (i 1)

/-- The third result: the region's 32-bit mask compared with zero is the one-bit comparison with the threshold. -/
theorem mask_eq (c : Dev nD) :
    Pipeline.afterTail₀ cfgs (dats m) 0 (entryVal m) [hostOps1] c main_v39 = Cert.IouSpec.neighbour (m ((c : Thread nD τ).loc main_arg0)) := by
  rw [mask_tail_fun m c]
  funext i
  rw [final5 m c]
  obtain ⟨r, q, rfl⟩ : ∃ (r q : Fin 2000), i = ix2 r q := ⟨i 0, i 1, eq_ix2 i⟩
  show IntOp.cmpi .ne ((FloatOps.cmpf (F := Ideal) .oge (iouAt (stackedDt m c) (tableDt m c) r q) Cert.IouSpec.fifth).setWidth 32) 0#32
    = FloatOps.cmpf (F := Ideal) .oge (Cert.IouSpec.iou (m ((c : Thread nD τ).loc main_arg0)) (m ((c : Thread nD τ).loc main_arg0)) r q) Cert.IouSpec.fifth
  rw [cmpi_ne_setWidth, iouAt_dt]

/-- The kernel's run with every result named: the three results at the specification's three tables of the two
    argument arrays, the arguments unchanged. -/
theorem run_values : θ_run defs (onTc (τ := τ) (main (F := Ideal))) ⟨m, fun _ => 0, ρ⟩ (fun r => ∀ c : Dev nD,
      r.2.mem ((c.tc : Thread nD τ).loc main_v36_0) = Cert.IouSpec.dtGt (m ((c : Thread nD τ).loc main_arg0)) (m ((c : Thread nD τ).loc main_arg1))
      ∧ r.2.mem ((c.tc : Thread nD τ).loc main_v36_1) = Cert.IouSpec.dtDt (m ((c : Thread nD τ).loc main_arg0))
      ∧ r.2.mem ((c.tc : Thread nD τ).loc main_v39) = Cert.IouSpec.neighbour (m ((c : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(((h c).1 3).trans (final3 m c)).trans (dtGtArr_eq m c),
     (((h c).1 4).trans (final4 m c)).trans (dtDtArr_eq m c),
     ((h c).2 main_v39 (Pipeline.mem_restRefs_of main_v39 (by decide) (by decide))).trans (mask_eq m c),
     ((h c).2 main_arg0 (Pipeline.mem_restRefs_of main_arg0 (by decide) (by decide))).trans (atExit_arg0 m (dats m) c),
     ((h c).2 main_arg1 (Pipeline.mem_restRefs_of main_arg1 (by decide) (by decide))).trans (atExit_arg1 m (dats m) c)⟩) (run_main m ρ)

end Cert.KernelIdeal.Iou

end
-- ==== Proof.RefSide.lean ====
/-
  The reference's three results, index by index.

  The arguments are an array dt of 2000 boxes and an array gt of 512 boxes, each row the corners (x1, y1, x2, y2).
  Column k of an argument, read at row r, is the entry [r, k]; the area column read at r is
  (b[r,2] − b[r,0]) · (b[r,3] − b[r,1]). A column laid along the rows of a table takes at (p, q) its value at p,
  laid along the columns its value at q. So at (p, q), with a = dt[p] and b = gt[q],
    inter = max(min(a.x2, b.x2) − max(a.x1, b.x1), 0) · max(min(a.y2, b.y2) − max(a.y1, b.y1), 0)
  and the first result is inter / ((area a + area b) − inter): the 2000×512 table of IoUs of dt against gt.
  The second result is the same expression with b = dt[q]: the 2000×2000 table of dt against dt.
  The third is the second compared (≥) entry by entry with the single-precision constant nearest 0.2.
-/
import proofs.«175029_j12867722019170_2_alg».proof.Proof.Gen.ReferenceIdeal.Run
import proofs.«175029_j12867722019170_2_alg».proof.Proof.Gen.ReferenceIdeal.Read
import proofs.«175029_j12867722019170_2_alg».proof.Proof.IouSpec
import Idealize.ShloMosaic.Lib.ValueIdx
import Idealize.ShloMosaic.Lib.Pipeline.Value

noncomputable section

namespace Cert.ReferenceIdeal.RefValue

open Cert.ReferenceIdeal Cert.ReferenceIdeal.Gen Idealize.ShloMosaic Idealize.ShloMosaic.ValueIdx
  Idealize.ShloMosaic.TcCoe Idealize.SL.Sem

/-- The detections: 2000 rows of four corners. -/
abbrev Dt := (⟨S2000x4, .f32⟩ : BufTy).Contents (Elt Ideal)
/-- The ground-truth boxes: 512 rows of four corners. -/
abbrev Gt := (⟨S512x4, .f32⟩ : BufTy).Contents (Elt Ideal)

/-! ## The corner columns: column k read at row r is the entry [r, k] -/

theorem dt_corner0 (x0 : Dt) (r : Fin 2000) : Read.val_main_v1 (F := Ideal) x0 (ix1 r) = x0 (ix2 r 0) := by
  have e : Read.idx_main_v0 (Read.idx_main_v1 (ix1 r)) = ix2 r 0 := funext fun a => match a with
    | ⟨0, _⟩ => Fin.ext (by show r.val / 1 = r.val; exact Nat.div_one _)
    | ⟨1, _⟩ => rfl
  rw [Read.val_main_v1_apply, Read.val_main_v0_apply, e]

theorem dt_corner1 (x0 : Dt) (r : Fin 2000) : Read.val_main_v3 (F := Ideal) x0 (ix1 r) = x0 (ix2 r 1) := by
  have e : Read.idx_main_v2 (Read.idx_main_v3 (ix1 r)) = ix2 r 1 := funext fun a => match a with
    | ⟨0, _⟩ => Fin.ext (by show r.val / 1 = r.val; exact Nat.div_one _)
    | ⟨1, _⟩ => rfl
  rw [Read.val_main_v3_apply, Read.val_main_v2_apply, e]

theorem dt_corner2 (x0 : Dt) (r : Fin 2000) : Read.val_main_v5 (F := Ideal) x0 (ix1 r) = x0 (ix2 r 2) := by
  have e : Read.idx_main_v4 (Read.idx_main_v5 (ix1 r)) = ix2 r 2 := funext fun a => match a with
    | ⟨0, _⟩ => Fin.ext (by show r.val / 1 = r.val; exact Nat.div_one _)
    | ⟨1, _⟩ => rfl
  rw [Read.val_main_v5_apply, Read.val_main_v4_apply, e]

theorem dt_corner3 (x0 : Dt) (r : Fin 2000) : Read.val_main_v7 (F := Ideal) x0 (ix1 r) = x0 (ix2 r 3) := by
  have e : Read.idx_main_v6 (Read.idx_main_v7 (ix1 r)) = ix2 r 3 := funext fun a => match a with
    | ⟨0, _⟩ => Fin.ext (by show r.val / 1 = r.val; exact Nat.div_one _)
    | ⟨1, _⟩ => rfl
  rw [Read.val_main_v7_apply, Read.val_main_v6_apply, e]

theorem gt_corner0 (x1 : Gt) (r : Fin 512) : Read.val_main_v12 (F := Ideal) x1 (ix1 r) = x1 (ix2 r 0) := by
  have e : Read.idx_main_v11 (Read.idx_main_v12 (ix1 r)) = ix2 r 0 := funext fun a => match a with
    | ⟨0, _⟩ => Fin.ext (by show r.val / 1 = r.val; exact Nat.div_one _)
    | ⟨1, _⟩ => rfl
  rw [Read.val_main_v12_apply, Read.val_main_v11_apply, e]

theorem gt_corner1 (x1 : Gt) (r : Fin 512) : Read.val_main_v14 (F := Ideal) x1 (ix1 r) = x1 (ix2 r 1) := by
  have e : Read.idx_main_v13 (Read.idx_main_v14 (ix1 r)) = ix2 r 1 := funext fun a => match a with
    | ⟨0, _⟩ => Fin.ext (by show r.val / 1 = r.val; exact Nat.div_one _)
    | ⟨1, _⟩ => rfl
  rw [Read.val_main_v14_apply, Read.val_main_v13_apply, e]

theorem gt_corner2 (x1 : Gt) (r : Fin 512) : Read.val_main_v16 (F := Ideal) x1 (ix1 r) = x1 (ix2 r 2) := by
  have e : Read.idx_main_v15 (Read.idx_main_v16 (ix1 r)) = ix2 r 2 := funext fun a => match a with
    | ⟨0, _⟩ => Fin.ext (by show r.val / 1 = r.val; exact Nat.div_one _)
    | ⟨1, _⟩ => rfl
  rw [Read.val_main_v16_apply, Read.val_main_v15_apply, e]

theorem gt_corner3 (x1 : Gt) (r : Fin 512) : Read.val_main_v18 (F := Ideal) x1 (ix1 r) = x1 (ix2 r 3) := by
  have e : Read.idx_main_v17 (Read.idx_main_v18 (ix1 r)) = ix2 r 3 := funext fun a => match a with
    | ⟨0, _⟩ => Fin.ext (by show r.val / 1 = r.val; exact Nat.div_one _)
    | ⟨1, _⟩ => rfl
  rw [Read.val_main_v18_apply, Read.val_main_v17_apply, e]

/-! ## The area columns: (x2 − x1)·(y2 − y1) of row r -/

theorem dt_area (x0 : Dt) (r : Fin 2000) : Read.val_main_v10 (F := Ideal) x0 (ix1 r) = Cert.IouSpec.area x0 r := by
  rw [Read.val_main_v10_apply, Read.val_main_v8_apply, Read.val_main_v9_apply,
    dt_corner2, dt_corner0, dt_corner3, dt_corner1]
  rfl

theorem gt_area (x1 : Gt) (r : Fin 512) : Read.val_main_v21 (F := Ideal) x1 (ix1 r) = Cert.IouSpec.area x1 r := by
  rw [Read.val_main_v21_apply, Read.val_main_v19_apply, Read.val_main_v20_apply,
    gt_corner2, gt_corner0, gt_corner3, gt_corner1]
  rfl

/-! ## The 2000×512 table: a column of dt laid along the rows reads at (p, q) its value at p,
    a column of gt laid along the columns its value at q -/

section DtGt
variable (x0 : Dt) (x1 : Gt) (p : Fin 2000) (q : Fin 512)

theorem dg_row0 : Read.val_main_v24 (F := Ideal) x0 (ix2 p q) = x0 (ix2 p 0) := by
  have e : Read.idx_main_v22 (Read.idx_main_v24 (ix2 p q)) = ix1 p := funext fun a => match a with
    | ⟨0, _⟩ => rfl
  rw [Read.val_main_v24_apply, Read.val_main_v22_apply, e, dt_corner0]

theorem dg_row1 : Read.val_main_v29 (F := Ideal) x0 (ix2 p q) = x0 (ix2 p 1) := by
  have e : Read.idx_main_v27 (Read.idx_main_v29 (ix2 p q)) = ix1 p := funext fun a => match a with
    | ⟨0, _⟩ => rfl
  rw [Read.val_main_v29_apply, Read.val_main_v27_apply, e, dt_corner1]

theorem dg_row2 : Read.val_main_v34 (F := Ideal) x0 (ix2 p q) = x0 (ix2 p 2) := by
  have e : Read.idx_main_v32 (Read.idx_main_v34 (ix2 p q)) = ix1 p := funext fun a => match a with
    | ⟨0, _⟩ => rfl
  rw [Read.val_main_v34_apply, Read.val_main_v32_apply, e, dt_corner2]

theorem dg_row3 : Read.val_main_v39 (F := Ideal) x0 (ix2 p q) = x0 (ix2 p 3) := by
  have e : Read.idx_main_v37 (Read.idx_main_v39 (ix2 p q)) = ix1 p := funext fun a => match a with
    | ⟨0, _⟩ => rfl
  rw [Read.val_main_v39_apply, Read.val_main_v37_apply, e, dt_corner3]

theorem dg_rowArea : Read.val_main_v51 (F := Ideal) x0 (ix2 p q) = Cert.IouSpec.area x0 p := by
  have e : Read.idx_main_v49 (Read.idx_main_v51 (ix2 p q)) = ix1 p := funext fun a => match a with
    | ⟨0, _⟩ => rfl
  rw [Read.val_main_v51_apply, Read.val_main_v49_apply, e, dt_area]

theorem dg_col0 : Read.val_main_v25 (F := Ideal) x1 (ix2 p q) = x1 (ix2 q 0) := by
  have e : Read.idx_main_v23 (Read.idx_main_v25 (ix2 p q)) = ix1 q := funext fun a => match a with
    | ⟨0, _⟩ => rfl
  rw [Read.val_main_v25_apply, Read.val_main_v23_apply, e, gt_corner0]

theorem dg_col1 : Read.val_main_v30 (F := Ideal) x1 (ix2 p q) = x1 (ix2 q 1) := by
  have e : Read.idx_main_v28 (Read.idx_main_v30 (ix2 p q)) = ix1 q := funext fun a => match a with
    | ⟨0, _⟩ => rfl
  rw [Read.val_main_v30_apply, Read.val_main_v28_apply, e, gt_corner1]

theorem dg_col2 : Read.val_main_v35 (F := Ideal) x1 (ix2 p q) = x1 (ix2 q 2) := by
  have e : Read.idx_main_v33 (Read.idx_main_v35 (ix2 p q)) = ix1 q := funext fun a => match a with
    | ⟨0, _⟩ => rfl
  rw [Read.val_main_v35_apply, Read.val_main_v33_apply, e, gt_corner2]

theorem dg_col3 : Read.val_main_v40 (F := Ideal) x1 (ix2 p q) = x1 (ix2 q 3) := by
  have e : Read.idx_main_v38 (Read.idx_main_v40 (ix2 p q)) = ix1 q := funext fun a => match a with
    | ⟨0, _⟩ => rfl
  rw [Read.val_main_v40_apply, Read.val_main_v38_apply, e, gt_corner3]

theorem dg_colArea : Read.val_main_v52 (F := Ideal) x1 (ix2 p q) = Cert.IouSpec.area x1 q := by
  have e : Read.idx_main_v50 (Read.idx_main_v52 (ix2 p q)) = ix1 q := funext fun a => match a with
    | ⟨0, _⟩ => rfl
  rw [Read.val_main_v52_apply, Read.val_main_v50_apply, e, gt_area]

end DtGt

/-- The constant-zero table, at any entry. -/
theorem dg_zero_a (i : S2000x512.Idx) : Read.val_main_v43 (F := Ideal) i = Cert.IouSpec.zero :=
  (Read.val_main_v43_apply i).trans (Read.val_main_cst_apply _)

theorem dg_zero_b (i : S2000x512.Idx) : Read.val_main_v46 (F := Ideal) i = Cert.IouSpec.zero :=
  (Read.val_main_v46_apply i).trans (Read.val_main_cst_0_apply _)

/-- The first result is the table of IoUs of dt against gt. -/
theorem val_dtGt (x0 : Dt) (x1 : Gt) : Read.val_main_v55 (F := Ideal) x0 x1 = Cert.IouSpec.dtGt x0 x1 := by
  funext i
  obtain ⟨p, q, rfl⟩ : ∃ (p : Fin 2000) (q : Fin 512), i = ix2 p q := ⟨i 0, i 1, eq_ix2 i⟩
  simp only [Read.val_main_v55_apply, Read.val_main_v54_apply, Read.val_main_v53_apply, Read.val_main_v48_apply,
    Read.val_main_v47_apply, Read.val_main_v45_apply, Read.val_main_v44_apply, Read.val_main_v42_apply,
    Read.val_main_v41_apply, Read.val_main_v36_apply, Read.val_main_v31_apply, Read.val_main_v26_apply,
    dg_row0, dg_row1, dg_row2, dg_row3, dg_rowArea, dg_col0, dg_col1, dg_col2, dg_col3, dg_colArea,
    dg_zero_a, dg_zero_b]
  rfl

/-! ## The 2000×2000 table: the same columns of dt laid along the rows and along the columns -/

section DtDt
variable (x0 : Dt) (p q : Fin 2000)

theorem dd_row0 : Read.val_main_v58 (F := Ideal) x0 (ix2 p q) = x0 (ix2 p 0) := by
  have e : Read.idx_main_v56 (Read.idx_main_v58 (ix2 p q)) = ix1 p := funext fun a => match a with
    | ⟨0, _⟩ => rfl
  rw [Read.val_main_v58_apply, Read.val_main_v56_apply, e, dt_corner0]

theorem dd_row1 : Read.val_main_v63 (F := Ideal) x0 (ix2 p q) = x0 (ix2 p 1) := by
  have e : Read.idx_main_v61 (Read.idx_main_v63 (ix2 p q)) = ix1 p := funext fun a => match a with
    | ⟨0, _⟩ => rfl
  rw [Read.val_main_v63_apply, Read.val_main_v61_apply, e, dt_corner1]

theorem dd_row2 : Read.val_main_v68 (F := Ideal) x0 (ix2 p q) = x0 (ix2 p 2) := by
  have e : Read.idx_main_v66 (Read.idx_main_v68 (ix2 p q)) = ix1 p := funext fun a => match a with
    | ⟨0, _⟩ => rfl
  rw [Read.val_main_v68_apply, Read.val_main_v66_apply, e, dt_corner2]

theorem dd_row3 : Read.val_main_v73 (F := Ideal) x0 (ix2 p q) = x0 (ix2 p 3) := by
  have e : Read.idx_main_v71 (Read.idx_main_v73 (ix2 p q)) = ix1 p := funext fun a => match a with
    | ⟨0, _⟩ => rfl
  rw [Read.val_main_v73_apply, Read.val_main_v71_apply, e, dt_corner3]

theorem dd_rowArea : Read.val_main_v85 (F := Ideal) x0 (ix2 p q) = Cert.IouSpec.area x0 p := by
  have e : Read.idx_main_v83 (Read.idx_main_v85 (ix2 p q)) = ix1 p := funext fun a => match a with
    | ⟨0, _⟩ => rfl
  rw [Read.val_main_v85_apply, Read.val_main_v83_apply, e, dt_area]

theorem dd_col0 : Read.val_main_v59 (F := Ideal) x0 (ix2 p q) = x0 (ix2 q 0) := by
  have e : Read.idx_main_v57 (Read.idx_main_v59 (ix2 p q)) = ix1 q := funext fun a => match a with
    | ⟨0, _⟩ => rfl
  rw [Read.val_main_v59_apply, Read.val_main_v57_apply, e, dt_corner0]

theorem dd_col1 : Read.val_main_v64 (F := Ideal) x0 (ix2 p q) = x0 (ix2 q 1) := by
  have e : Read.idx_main_v62 (Read.idx_main_v64 (ix2 p q)) = ix1 q := funext fun a => match a with
    | ⟨0, _⟩ => rfl
  rw [Read.val_main_v64_apply, Read.val_main_v62_apply, e, dt_corner1]

theorem dd_col2 : Read.val_main_v69 (F := Ideal) x0 (ix2 p q) = x0 (ix2 q 2) := by
  have e : Read.idx_main_v67 (Read.idx_main_v69 (ix2 p q)) = ix1 q := funext fun a => match a with
    | ⟨0, _⟩ => rfl
  rw [Read.val_main_v69_apply, Read.val_main_v67_apply, e, dt_corner2]

theorem dd_col3 : Read.val_main_v74 (F := Ideal) x0 (ix2 p q) = x0 (ix2 q 3) := by
  have e : Read.idx_main_v72 (Read.idx_main_v74 (ix2 p q)) = ix1 q := funext fun a => match a with
    | ⟨0, _⟩ => rfl
  rw [Read.val_main_v74_apply, Read.val_main_v72_apply, e, dt_corner3]

theorem dd_colArea : Read.val_main_v86 (F := Ideal) x0 (ix2 p q) = Cert.IouSpec.area x0 q := by
  have e : Read.idx_main_v84 (Read.idx_main_v86 (ix2 p q)) = ix1 q := funext fun a => match a with
    | ⟨0, _⟩ => rfl
  rw [Read.val_main_v86_apply, Read.val_main_v84_apply, e, dt_area]

end DtDt

theorem dd_zero_a (i : S2000x2000.Idx) : Read.val_main_v77 (F := Ideal) i = Cert.IouSpec.zero :=
  (Read.val_main_v77_apply i).trans (Read.val_main_cst_1_apply _)

theorem dd_zero_b (i : S2000x2000.Idx) : Read.val_main_v80 (F := Ideal) i = Cert.IouSpec.zero :=
  (Read.val_main_v80_apply i).trans (Read.val_main_cst_2_apply _)

/-- The threshold table, at any entry: the single-precision constant nearest 0.2. -/
theorem dd_fifth (i : S2000x2000.Idx) : Read.val_main_v90 (F := Ideal) i = Cert.IouSpec.fifth :=
  (Read.val_main_v90_apply i).trans (Read.val_main_cst_3_apply _)

/-- The second result is the table of IoUs of dt against dt. -/
theorem val_dtDt (x0 : Dt) : Read.val_main_v89 (F := Ideal) x0 = Cert.IouSpec.dtDt x0 := by
  funext i
  obtain ⟨p, q, rfl⟩ : ∃ (p : Fin 2000) (q : Fin 2000), i = ix2 p q := ⟨i 0, i 1, eq_ix2 i⟩
  simp only [Read.val_main_v89_apply, Read.val_main_v88_apply, Read.val_main_v87_apply, Read.val_main_v82_apply,
    Read.val_main_v81_apply, Read.val_main_v79_apply, Read.val_main_v78_apply, Read.val_main_v76_apply,
    Read.val_main_v75_apply, Read.val_main_v70_apply, Read.val_main_v65_apply, Read.val_main_v60_apply,
    dd_row0, dd_row1, dd_row2, dd_row3, dd_rowArea, dd_col0, dd_col1, dd_col2, dd_col3, dd_colArea,
    dd_zero_a, dd_zero_b]
  rfl

/-- The third result is the second compared (≥) with the threshold, entry by entry. -/
theorem val_neighbour (x0 : Dt) : Read.val_main_v91 (F := Ideal) x0 = Cert.IouSpec.neighbour x0 := by
  funext i
  rw [Read.val_main_v91_apply, dd_fifth, val_dtDt]
  rfl

/-! ## The three results of the run -/

theorem out0_eq (m : (ℓ : Loc nD τ sig) → Buf (Elt Ideal) ℓ) (c : Dev nD) :
    Cert.ReferenceIdeal.Value.res_out0 (F := Ideal) m c
      = Cert.IouSpec.dtGt (m ((c.tc : Thread nD τ).loc main_arg0)) (m ((c.tc : Thread nD τ).loc main_arg1)) :=
  (Read.val_main_v55_eq (F := Ideal) m c).trans (val_dtGt _ _)

theorem out1_eq (m : (ℓ : Loc nD τ sig) → Buf (Elt Ideal) ℓ) (c : Dev nD) :
    Cert.ReferenceIdeal.Value.res_out1 (F := Ideal) m c
      = Cert.IouSpec.dtDt (m ((c.tc : Thread nD τ).loc main_arg0)) :=
  (Read.val_main_v89_eq (F := Ideal) m c).trans (val_dtDt _)

theorem out2_eq (m : (ℓ : Loc nD τ sig) → Buf (Elt Ideal) ℓ) (c : Dev nD) :
    Cert.ReferenceIdeal.Value.res_out2 (F := Ideal) m c
      = Cert.IouSpec.neighbour (m ((c.tc : Thread nD τ).loc main_arg0)) :=
  (Read.val_main_v91_eq (F := Ideal) m c).trans (val_neighbour _)

end Cert.ReferenceIdeal.RefValue

end
-- ==== Proof.lean ====
/-
  Pairwise IoU of 2000 detections against 512 ground-truth boxes and against themselves, with the neighbour mask
  IoU ≥ 0.2: a kernel over five row tiles against the plain array program.

  Both programs compute, for boxes a and b with corners (x1, y1, x2, y2) and area (x2 − x1)·(y2 − y1),
    inter = max(min(a.x2, b.x2) − max(a.x1, b.x1), 0) · max(min(a.y2, b.y2) − max(a.y1, b.y1), 0),
    iou   = inter / (area a + area b − inter),
  with the same operations in the same order at every element, and compare the detections' table with the same
  single-precision constant; the kernel only arranges the work differently (feature tables built on the host, row
  tiles of 400 detections, the mask carried as 32-bit words and turned back into bits). So at the ideal instance the
  three results are one function of the two argument arrays, element by element, with no algebraic law beyond
  reading every array at an index — in particular the finiteness of the inputs is never used. The three frames are
  the programs' runs with the results dropped; the idealization rewrote nothing.
-/
import proofs.«175029_j12867722019170_2_alg».proof.Defs
import proofs.«175029_j12867722019170_2_alg».proof.Proof.Gen.Kernel
import proofs.«175029_j12867722019170_2_alg».proof.Proof.Gen.KernelIdeal
import proofs.«175029_j12867722019170_2_alg».proof.Proof.Gen.ReferenceIdeal
import proofs.«175029_j12867722019170_2_alg».proof.Proof.Gen.Pre_finite_inputs
import proofs.«175029_j12867722019170_2_alg».proof.Proof.KernelFrame
import proofs.«175029_j12867722019170_2_alg».proof.Proof.KernelValue
import proofs.«175029_j12867722019170_2_alg».proof.Proof.RefSide

noncomputable section

namespace Cert.Proof

open Idealize.ShloMosaic Idealize.SL.Sem

theorem frame_kernel : Cert.frame_Kernel := fun m ρ _ => Cert.Kernel.Iou.frame m ρ

theorem frame_kernelIdeal : Cert.frame_KernelIdeal := fun m ρ _ => Cert.KernelIdeal.Iou.frame m ρ

theorem frame_reference : Cert.frame_ReferenceIdeal := fun m ρ _ =>
  (θ_run Cert.ReferenceIdeal.defs _ _).mono (fun _ h c => ⟨(h c).2.2.2.1, (h c).2.2.2.2⟩)
    (Cert.ReferenceIdeal.Value.run (F := Ideal) m ρ)

/-- Both programs end with the specification's three tables of their (agreeing) argument arrays. -/
theorem algebraic : Cert.algebraic_KernelIdeal_ReferenceIdeal := by
  intro m ρ m' ρ' _ hagree
  refine ⟨_, _, _, Cert.KernelIdeal.Iou.run_values m ρ, ?_⟩
  refine (θ_run Cert.ReferenceIdeal.defs _ _).mono (fun _ h c => ?_) (Cert.ReferenceIdeal.Value.run (F := Ideal) m' ρ')
  refine ⟨(h c).1.trans ?_, (h c).2.1.trans ?_, (h c).2.2.1.trans ?_, (h c).2.2.2.1, (h c).2.2.2.2⟩
  · exact (Cert.ReferenceIdeal.RefValue.out0_eq m' c).trans (by rw [(hagree c).1, (hagree c).2])
  · exact (Cert.ReferenceIdeal.RefValue.out1_eq m' c).trans (by rw [(hagree c).1])
  · exact (Cert.ReferenceIdeal.RefValue.out2_eq m' c).trans (by rw [(hagree c).1])

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
